-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x8192 : Shape := ⟨2, ![16, 8192]⟩
abbrev S8192x8192 : Shape := ⟨2, ![8192, 8192]⟩
abbrev S8192 : Shape := ⟨1, ![8192]⟩
abbrev S_ : Shape := ⟨0, ![]⟩

class Facts : Prop where
  bcast_S_S16x8192 : S_.BroadcastsInDim S16x8192 (![] : Fin 0 → Fin S16x8192.rank)
  reducesTo_S16x8192_S_d0_1 : S16x8192.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S16x8192 .f32) (main_arg1 : FVec F S8192x8192 .f32) (main_arg2 : FVec F S8192 .f32) : IVec S_ 1 :=
  let main_v0 : FVec F S16x8192 .f32 := Host.absf main_arg0
  let main_cst : FVec F S_ .f32 := constant S_ .f32 0x7F800000#32
  let main_v1 : FVec F S16x8192 .f32 := broadcastInDim S16x8192 ![] bcast_S_S16x8192 main_cst
  let main_v2 : IVec S16x8192 1 := cmpf .olt main_v0 main_v1
  let main_c : IVec S_ 1 := constantI S_ 1 1#1
  let main_v3 : IVec S_ 1 := (fun x v => Host.reduce IntOp.andi x v reducesTo_S16x8192_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  main_v13
-- ==== Kernel.lean ====
abbrev S16x8192 : Shape := ⟨2, ![16, 8192]⟩
abbrev S8192x8192 : Shape := ⟨2, ![8192, 8192]⟩
abbrev S8192 : Shape := ⟨1, ![8192]⟩
abbrev S_ : Shape := ⟨0, ![]⟩
abbrev S1x8192 : Shape := ⟨2, ![1, 8192]⟩
abbrev S256x8192 : Shape := ⟨2, ![256, 8192]⟩
abbrev S1x256 : Shape := ⟨2, ![1, 256]⟩
abbrev S16x256 : Shape := ⟨2, ![16, 256]⟩
abbrev S256 : Shape := ⟨1, ![256]⟩
abbrev S256x1 : Shape := ⟨2, ![256, 1]⟩
abbrev S256x2048 : Shape := ⟨2, ![256, 2048]⟩
abbrev S16x2048 : Shape := ⟨2, ![16, 2048]⟩

abbrev nBuf : Space → Nat
  | .hbm => 25
  | .vmem => 8
  | .smem => 0
  | _ => 0

abbrev bufTy : (tb : Table) → Fin (tcTables nBuf tb) → BufTy
  | .hbm, ⟨0, _⟩ => ⟨S16x8192, .f32⟩
  | .hbm, ⟨1, _⟩ => ⟨S8192x8192, .f32⟩
  | .hbm, ⟨2, _⟩ => ⟨S8192, .f32⟩
  | .hbm, ⟨3, _⟩ => ⟨S16x8192, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S16x8192, .f32⟩
  | .hbm, ⟨11, _⟩ => ⟨S16x8192, .f32⟩
  | .hbm, ⟨12, _⟩ => ⟨S16x8192, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S16x8192, .f32⟩
  | .hbm, ⟨17, _⟩ => ⟨S16x8192, .f32⟩
  | .hbm, ⟨18, _⟩ => ⟨S_, .f32⟩
  | .hbm, ⟨19, _⟩ => ⟨S16x8192, .f32⟩
  | .hbm, ⟨20, _⟩ => ⟨S16x8192, .f32⟩
  | .hbm, ⟨21, _⟩ => ⟨S16x8192, .f32⟩
  | .hbm, ⟨22, _⟩ => ⟨S16x8192, .f32⟩
  | .hbm, ⟨23, _⟩ => ⟨S1x8192, .f32⟩
  | .hbm, ⟨24, _⟩ => ⟨S16x8192, .f32⟩
  | .local _ .vmem, ⟨0, _⟩ => ⟨S16x8192, .f32⟩
  | .local _ .vmem, ⟨1, _⟩ => ⟨S256x8192, .f32⟩
  | .local _ .vmem, ⟨2, _⟩ => ⟨S256x8192, .f32⟩
  | .local _ .vmem, ⟨3, _⟩ => ⟨S1x256, .f32⟩
  | .local _ .vmem, ⟨4, _⟩ => ⟨S1x256, .f32⟩
  | .local _ .vmem, ⟨5, _⟩ => ⟨S16x256, .f32⟩
  | .local _ .vmem, ⟨6, _⟩ => ⟨S16x256, .f32⟩
  | .local _ .vmem, ⟨7, _⟩ => ⟨S16x256, .f32⟩
  | _, _ => ⟨S16x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_cst_3 : Ref sig .tc := ⟨.hbm, 14, rfl⟩
abbrev main_call1_v0 : Ref sig .tc := ⟨.hbm, 15, rfl⟩
abbrev main_call1_v1 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def k0_mult1 : BitVec 32 :=
  let c0_i32 : BitVec 32 := 0#32
  let c2048_i32 : BitVec 32 := 2048#32
  let v12 : BitVec 32 := Scalar.muli c0_i32 c2048_i32
  v12
def k0_off1 (c0_i32 : BitVec 32) : Fin 2 → Nat :=
  let c0_6 : Index := 0#32
  let c2048_i32 : BitVec 32 := 2048#32
  let v12 : BitVec 32 := Scalar.muli c0_i32 c2048_i32
  let v13 : BitVec 32 := v12
  let v14 : Index := Scalar.indexCast v13
  ![0, v14.toNat]
def k0_off2 (c0_i32 : BitVec 32) : Fin 2 → Nat :=
  let c0_7 : Index := 0#32
  let c2048_i32 : BitVec 32 := 2048#32
  let v12 : BitVec 32 := Scalar.muli c0_i32 c2048_i32
  let v13 : BitVec 32 := v12
  let v16 : Index := Scalar.indexCast v13
  ![0, v16.toNat]
def k0_mult2 : BitVec 32 :=
  let c1_i32 : BitVec 32 := 1#32
  let c2048_i32_17 : BitVec 32 := 2048#32
  let v43 : BitVec 32 := Scalar.muli c1_i32 c2048_i32_17
  v43
def k0_mult3 : BitVec 32 :=
  let c2_i32 : BitVec 32 := 2#32
  let c2048_i32_29 : BitVec 32 := 2048#32
  let v74 : BitVec 32 := Scalar.muli c2_i32 c2048_i32_29
  v74
def k0_mult4 : BitVec 32 :=
  let c3_i32 : BitVec 32 := 3#32
  let c2048_i32_41 : BitVec 32 := 2048#32
  let v105 : BitVec 32 := Scalar.muli c3_i32 c2048_i32_41
  v105
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  reducesTo_S16x8192_S_d0_1 : S16x8192.ReducesTo [0, 1] S_
  h_S_ : 0 < S_.numel
  bcast_S_S16x8192 : S_.BroadcastsInDim S16x8192 (![] : Fin 0 → Fin S16x8192.rank)
  shapeCasts_S8192_S1x8192 : S8192.ShapeCasts S1x8192
  inb_S256x8192_S256x8192_0_0 : ∀ a, (![0, 0] : Fin 2 → Nat) a + S256x8192.size a ≤ S256x8192.size a
  h_S256x8192 : 0 < S256x8192.numel
  reduces_S256x8192_S256 : S256x8192.Reduces [1] S256
  shapeCasts_S256_S256x1 : S256.ShapeCasts S256x1
  inb_S16x256_S16x256_0_0 : ∀ a, (![0, 0] : Fin 2 → Nat) a + S16x256.size a ≤ S16x256.size a
  h_S16x256 : 0 < S16x256.numel
  shapeCasts_S16x256_S16x256 : S16x256.ShapeCasts S16x256
  h_S256x2048 : 0 < S256x2048.numel
  h_S16x2048 : 0 < S16x2048.numel
  shapeCasts_S16x2048_S16x2048 : S16x2048.ShapeCasts S16x2048
  broadcasts_S256x1_S256x2048 : S256x1.Broadcasts S256x2048
  shapeCasts_S256x1_S256x1 : S256x1.ShapeCasts S256x1
  bitsLt_bf16_f32 : FTy.bits .bf16 < FTy.bits .f32
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S16x256 : S1x256.Broadcasts S16x256
  dot_S16x2048_S256x2048_S16x256_1_1_0_0_n_n_wf : DotDims.WF S16x2048 S256x2048 S16x256 [1] [1] [0] [0] [] []
  hrank0 : 0 < grid0.rank
  k0_mult1_dvd : 2048 ∣ k0_mult1.toNat
  k0_off1_inb : ∀ (r : Fin 4), ∀ a, (k0_off1 (BitVec.ofNat 32 r.val)) a + S256x2048.size a ≤ S256x8192.size a
  k0_off2_inb : ∀ (r : Fin 4), ∀ a, (k0_off2 (BitVec.ofNat 32 r.val)) a + S16x2048.size a ≤ S16x8192.size a
  k0_mult2_dvd : 2048 ∣ k0_mult2.toNat
  k0_mult3_dvd : 2048 ∣ k0_mult3.toNat
  k0_mult4_dvd : 2048 ∣ k0_mult4.toNat
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S16x8192.size a ≤ S16x8192.size a
  hwx0_0 : ∀ i : grid0.Coords, EltTy.bits .f32 = 32 ∨ (Rect.block (s := S16x8192) S16x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x8192.size a ≤ S8192x8192.size a
  hwx0_1 : ∀ i : grid0.Coords, EltTy.bits .f32 = 32 ∨ (Rect.block (s := S8192x8192) S256x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x8192.size a
  hwx0_2 : ∀ i : grid0.Coords, EltTy.bits .f32 = 32 ∨ (Rect.block (s := S1x8192) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x256.size a ≤ S16x8192.size a
  hwx0_3 : ∀ i : grid0.Coords, EltTy.bits .f32 = 32 ∨ (Rect.block (s := S16x8192) S16x256.size (cc0_transform_3 i) (hinb0_3 i)).WholeWords (EltTy.packing .f32)

variable [Facts₀]

def dot_S16x2048_S256x2048_S16x256_1_1_0_0_n_n : DotDims S16x2048 S256x2048 S16x256 where
  lhsContracting := [1]
  rhsContracting := [1]
  lhsNonContracting := [0]
  rhsNonContracting := [0]
  lhsBatch := []
  rhsBatch := []
  wf := dot_S16x2048_S256x2048_S16x256_1_1_0_0_n_n_wf

abbrev win0_0 : Pipeline.Window sig grid0 :=
  Pipeline.Window.ofSpec (Memref.whole main_v9) S16x8192.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S16x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x8192 : Shape := ⟨2, ![16, 8192]⟩
abbrev S8192x8192 : Shape := ⟨2, ![8192, 8192]⟩
abbrev S8192 : Shape := ⟨1, ![8192]⟩
abbrev S_ : Shape := ⟨0, ![]⟩
abbrev S8192x1 : Shape := ⟨2, ![8192, 1]⟩
abbrev S1x8192 : Shape := ⟨2, ![1, 8192]⟩

abbrev nBuf : Space → Nat
  | .hbm => 54
  | .vmem => 0
  | .smem => 0
  | _ => 0

abbrev bufTy : (tb : Table) → Fin (tcTables nBuf tb) → BufTy
  | .hbm, ⟨0, _⟩ => ⟨S16x8192, .f32⟩
  | .hbm, ⟨1, _⟩ => ⟨S8192x8192, .f32⟩
  | .hbm, ⟨2, _⟩ => ⟨S8192, .f32⟩
  | .hbm, ⟨3, _⟩ => ⟨S16x8192, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S16x8192, .f32⟩
  | .hbm, ⟨11, _⟩ => ⟨S16x8192, .f32⟩
  | .hbm, ⟨12, _⟩ => ⟨S16x8192, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S16x8192, .f32⟩
  | .hbm, ⟨17, _⟩ => ⟨S16x8192, .f32⟩
  | .hbm, ⟨18, _⟩ => ⟨S_, .f32⟩
  | .hbm, ⟨19, _⟩ => ⟨S16x8192, .f32⟩
  | .hbm, ⟨20, _⟩ => ⟨S16x8192, .f32⟩
  | .hbm, ⟨21, _⟩ => ⟨S16x8192, .f32⟩
  | .hbm, ⟨22, _⟩ => ⟨S16x8192, .f32⟩
  | .hbm, ⟨23, _⟩ => ⟨S16x8192, .f32⟩
  | .hbm, ⟨24, _⟩ => ⟨S16x8192, .f32⟩
  | .hbm, ⟨25, _⟩ => ⟨S8192x8192, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x8192, .f32⟩
  | .hbm, ⟨36, _⟩ => ⟨S8192x8192, .f32⟩
  | .hbm, ⟨37, _⟩ => ⟨S8192x8192, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S8192x8192, .f32⟩
  | .hbm, ⟨42, _⟩ => ⟨S8192x8192, .f32⟩
  | .hbm, ⟨43, _⟩ => ⟨S_, .f32⟩
  | .hbm, ⟨44, _⟩ => ⟨S8192x8192, .f32⟩
  | .hbm, ⟨45, _⟩ => ⟨S8192x8192, .f32⟩
  | .hbm, ⟨46, _⟩ => ⟨S8192x8192, .f32⟩
  | .hbm, ⟨47, _⟩ => ⟨S8192x8192, .f32⟩
  | .hbm, ⟨48, _⟩ => ⟨S8192x8192, .f32⟩
  | .hbm, ⟨49, _⟩ => ⟨S8192x8192, .f32⟩
  | .hbm, ⟨50, _⟩ => ⟨S16x8192, .f32⟩
  | .hbm, ⟨51, _⟩ => ⟨S1x8192, .f32⟩
  | .hbm, ⟨52, _⟩ => ⟨S16x8192, .f32⟩
  | .hbm, ⟨53, _⟩ => ⟨S16x8192, .f32⟩
  | _, _ => ⟨S16x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_cst_3 : Ref sig .tc := ⟨.hbm, 14, rfl⟩
abbrev main_call1_v0 : Ref sig .tc := ⟨.hbm, 15, rfl⟩
abbrev main_call1_v1 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_v14 : Ref sig .tc := ⟨.hbm, 28, rfl⟩
abbrev main_cst_5 : Ref sig .tc := ⟨.hbm, 29, rfl⟩
abbrev main_v15 : Ref sig .tc := ⟨.hbm, 30, rfl⟩
abbrev main_v16 : Ref sig .tc := ⟨.hbm, 31, rfl⟩
abbrev main_cst_6 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_7 : Ref sig .tc := ⟨.hbm, 38, rfl⟩
abbrev main_cst_8 : Ref sig .tc := ⟨.hbm, 39, rfl⟩
abbrev main_call3_v0 : Ref sig .tc := ⟨.hbm, 40, rfl⟩
abbrev main_call3_v1 : Ref sig .tc := ⟨.hbm, 41, rfl⟩
abbrev main_call3_v2 : Ref sig .tc := ⟨.hbm, 42, rfl⟩
abbrev main_call3_v3 : Ref sig .tc := ⟨.hbm, 43, rfl⟩
abbrev main_call3_v4 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩

abbrev nD : Nat := 1
abbrev τ : Topo := Topo.v7x

variable {F : FTy → Type} [FloatOps F]

class Facts₀ : Prop where
  reducesTo_S16x8192_S_d0_1 : S16x8192.ReducesTo [0, 1] S_
  h_S_ : 0 < S_.numel
  bcast_S_S16x8192 : S_.BroadcastsInDim S16x8192 (![] : Fin 0 → Fin S16x8192.rank)
  reducesTo_S8192x8192_S8192_d1 : S8192x8192.ReducesTo [1] S8192
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x8192_0_1 : S8192x1.BroadcastsInDim S8192x8192 (![0, 1] : Fin 2 → Fin S8192x8192.rank)
  bcast_S_S8192x8192 : S_.BroadcastsInDim S8192x8192 (![] : Fin 0 → Fin S8192x8192.rank)
  bcast_S8192_S1x8192_1 : S8192.BroadcastsInDim S1x8192 (![1] : Fin 1 → Fin S1x8192.rank)
  bcast_S1x8192_S16x8192_0_1 : S1x8192.BroadcastsInDim S16x8192 (![0, 1] : Fin 2 → Fin S16x8192.rank)
  dot_S16x8192_S8192x8192_S16x8192_1_1_0_0_n_n_wf : DotDims.WF S16x8192 S8192x8192 S16x8192 [1] [1] [0] [0] [] []

variable [Facts₀]

def dot_S16x8192_S8192x8192_S16x8192_1_1_0_0_n_n : DotDims S16x8192 S8192x8192 S16x8192 where
  lhsContracting := [1]
  rhsContracting := [1]
  lhsNonContracting := [0]
  rhsNonContracting := [0]
  lhsBatch := []
  rhsBatch := []
  wf := dot_S16x8192_S8192x8192_S16x8192_1_1_0_0_n_n_wf

class Facts : Prop extends Facts₀ where

variable [Facts]
-- ==== Proof.KerBody.lean ====
/-
  What one run of the kernel body leaves in the output block, as ONE pure term of the three input blocks.

  The body zeroes a [16, 256] accumulator, then four times reads it back, adds the product of a 2048-column
  chunk of the activation block with the three-valued 2048-column chunk of the weight block, and stores it
  again; at the end it adds the bias row and stores the sum to the output block. Every store covers its whole
  buffer and every read-back reads the whole buffer, so each read-back is the payload of the store before it:
  the output block is the last payload with the earlier ones substituted.
-/
import proofs.«130121_j67053029425862_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.BitLinear.KerValue

open Cert.KernelIdeal Cert.KernelIdeal.Gen

variable {F : FTy → Type} [FloatOps F]

theorem hz : (![0, 0] : Fin 2 → Nat) = fun _ => 0 := funext fun a => by fin_cases a <;> rfl

/-- Columns `off … off + 2047` of a weight block lie inside its 8192 columns. -/
theorem inbW {off : Nat} (h : off + 2048 ≤ 8192) :
    ∀ a, (![0, off] : Fin 2 → Nat) a + (![256, 2048] : Fin 2 → Nat) a ≤ S256x8192.size a :=
  Rect.inb₂ (show (0 : Nat) + 256 ≤ 256 from Nat.le_refl _) h

/-- Columns `off … off + 2047` of the activation block lie inside its 8192 columns. -/
theorem inbX {off : Nat} (h : off + 2048 ≤ 8192) :
    ∀ a, (![0, off] : Fin 2 → Nat) a + (![16, 2048] : Fin 2 → Nat) a ≤ S16x8192.size a :=
  Rect.inb₂ (show (0 : Nat) + 16 ≤ 16 from Nat.le_refl _) h

/-- The 2048 columns from `off` of a weight block. -/
def wCols (x1 : Vec F S256x8192 .f32) (off : Nat) (h : off + 2048 ≤ 8192) : Vec F S256x2048 .f32 :=
  View.ld x1 (Rect.unit (s := S256x8192) ![0, off] ![256, 2048] (inbW h))

/-- The 2048 columns from `off` of the activation block. -/
def xCols (x0 : Vec F S16x8192 .f32) (off : Nat) (h : off + 2048 ≤ 8192) : Vec F S16x2048 .f32 :=
  View.ld x0 (Rect.unit (s := S16x8192) ![0, off] ![16, 2048] (inbX h))

/-- The output block as one term of the input blocks: the bias added to the accumulator after its four
    updates, the first from the zero block. -/
def body (x0 : Vec F S16x8192 .f32) (x1 : Vec F S256x8192 .f32) (x2 : Vec F S1x256 .f32) : Vec F S16x256 .f32 :=
  k0_pay2
    (k0_pay1 (k0_pay3 x1) (k0_pay9 (xCols x0 6144 (by decide)))
      (k0_pay10 (k0_pay3 x1) (wCols x1 6144 (by decide))) (k0_pay11 (wCols x1 6144 (by decide))) (k0_pay12 (k0_pay3 x1))
      (k0_pay8 (k0_pay3 x1) (wCols x1 4096 (by decide)) (xCols x0 4096 (by decide))
        (k0_pay7 (k0_pay3 x1) (wCols x1 2048 (by decide)) (xCols x0 2048 (by decide))
          (k0_pay6 k0_pay4 (k0_pay5 x1 (wCols x1 0 (by decide)) (xCols x0 0 (by decide)))))))
    x2

/-- The run's pieces for the output block, read back, are `body` of the input blocks. -/
theorem out_A (c : Dev nD) (i : grid0.Coords) (a1 : Memref sig .tc .vmem S16x8192 .f32) (h1 : a1.IsWhole)
    (a2 : Memref sig .tc .vmem S256x8192 .f32) (h2 : a2.IsWhole) (a3 : Memref sig .tc .vmem S1x256 .f32) (h3 : a3.IsWhole)
    (a4 : Memref sig .tc .vmem S16x256 .f32) (h4 : a4.IsWhole) (a5 : Memref sig .tc .vmem S16x256 .f32) (h5 : a5.IsWhole)
    (x0 : Vec F S16x8192 .f32) (x1 : Vec F S256x8192 .f32) (x2 : Vec F S1x256 .f32) :
    out0_A_3 c i a1 h1 a2 h2 a3 h3 a4 h4 a5 h5 x0 x1 x2 = body x0 x1 x2 := by
  unfold out0_A_3
  rw [View.read_writes_eq_canon _ _ _ (cover0_A_3 c i a1 h1 a2 h2 a3 h3 a4 h4 a5 h5 x0 x1 x2)]
  unfold kernelRun0_A
  dsimp only
  sl_unfold_words
  simp only [View.readCov_cons_toLoadRect]
  rw [View.canon_unit_zero hz]
  simp only [View.readAt_eq_ld, h1.read_unread, h2.read_unread, h3.read_unread, View.ld_unit_zero (S := S256x8192) hz,
    View.ld_unit_zero (S := S1x256) hz]
  rfl

end Cert.BitLinear.KerValue

end
-- ==== Proof.Spec.lean ====
/-
  The mathematics of the two programs, with no program in sight.

  A linear layer `out = xq · wqᵀ + bias` over x : [16, 8192], w : [8192, 8192], bias : [8192], in which each
  row `o` of the weight is replaced by a three-valued row: with the row's scale
  `alpha o = max (mean_k |w o k|) eps`, the entry `w o k` becomes `+alpha o`, `-alpha o` or `0`.
  There are two ways to say which: by a threshold (`alpha < 2·|w|`, then the sign of `w`), or by rounding the
  quotient `w / alpha` to the nearest integer (ties to even), clamping it to [-1, 1] and scaling back — the second
  written in the "straight-through" form `w + (ŵ - w)`. `tern` is the first, `ternRound` the second; they agree
  whenever `w` and `alpha` are finite and `alpha` is positive (module Ternary). `G` is the layer's result, index by
  index, with the threshold form; the activations `xq` enter it as an opaque array.
-/
import Idealize.ShloMosaic.PureOps.Ideal
import Idealize.ShloMosaic.PureOps.Ideal.Laws
import Idealize.ShloMosaic.Lib.ValueIdx

noncomputable section

namespace Cert.BitLinear

open Idealize.ShloMosaic Idealize.ShloMosaic.ValueIdx
open scoped BigOperators

/-- A two-axis array of extended reals. -/
abbrev Mat (a b : Nat) : Type := (⟨2, ![a, b]⟩ : Shape).Idx → EReal
/-- A one-axis array of extended reals. -/
abbrev Row (a : Nat) : Type := (⟨1, ![a]⟩ : Shape).Idx → EReal

/-! ## The float literals of the two programs, as the extended reals their patterns denote -/

/-- The float nearest `1e-8`, the lower clamp of a row's scale. -/
abbrev eps : EReal := Ideal.ofBits .f32 0x322BCC77#32
/-- `8192.0`, the number of columns. -/
abbrev c8192 : EReal := Ideal.ofBits .f32 0x46000000#32
/-- `2.0`. -/
abbrev c2 : EReal := Ideal.ofBits .f32 0x40000000#32
/-- `0.0`. -/
abbrev c0 : EReal := Ideal.ofBits .f32 0x00000000#32
/-- `1.0`. -/
abbrev c1 : EReal := Ideal.ofBits .f32 0x3F800000#32
/-- `-1.0`. -/
abbrev cm1 : EReal := Ideal.ofBits .f32 0xBF800000#32

/-! ## The row scale and the two three-valued forms -/

/-- The scale of row `o`: the mean of `|w o k|` over the 8192 columns, clamped below at `eps`. -/
def alpha (w : Mat 8192 8192) (o : Fin 8192) : EReal :=
  max (Ideal.div (∑ k : Fin 8192, max (w (ix2 o k)) (-(w (ix2 o k)))) c8192) eps

/-- The three-valued entry by THRESHOLD: `±a` with the sign of `v` when `a < 2·|v|`, else `0`. -/
def tern (a v : EReal) : EReal :=
  if a < c2 * max v (-v) then (if c0 < v then a else c0 - a) else c0

/-- The three-valued entry by ROUNDING, in straight-through form: `v + (clamp (round (v / a)) · a - v)`,
    the rounding to nearest with ties to even, the clamp to `[-1, 1]`. -/
def ternRound (a v : EReal) : EReal :=
  v + (min c1 (max cm1 (Ideal.liftRound Ideal.roundHalfEven (Ideal.div v a))) * a - v)

/-- The layer: entry `(r, o)` of the result is `∑ₖ xq r k · tern (alpha o) (w o k) + bias o`. -/
def G (xq : Mat 16 8192) (w : Mat 8192 8192) (b : Row 8192) : Mat 16 8192 :=
  fun i => (∑ k : Fin 8192, xq (ix2 (i 0) k) * tern (alpha w (i 1)) (w (ix2 (i 1) k))) + b (ix1 (i 1))

/-- A select on an ordered "greater than" of extended reals is an `if` on the order. -/
theorem select_ogt (x y a b : EReal) :
    Scalar.select (Ideal.cmp .ogt x y) a b = if y < x then a else b := by
  unfold Ideal.cmp
  by_cases h : y < x
  · rw [if_pos h]; simp only [h, decide_true, BitVec.ofBool_true]; exact select_one a b
  · rw [if_neg h]; simp only [h, decide_false, BitVec.ofBool_false]; exact select_zero a b

end Cert.BitLinear

end
-- ==== Proof.LibExtReal.lean ====
/-
  General laws of the extended reals under the exact float operations, used to join two
  arrangements of the same computation: a clamp taken under a square root or on its square, a
  variance written as the mean of squared deviations or as the mean of squares less the squared
  mean, a sum over rows regrouped into equal tiles, a dot product over a zero-padded axis, and
  the closure of the finite values (the coerced reals) under the operations that occur.
  Nothing here mentions a program.
-/
import Idealize.ShloMosaic.PureOps.Ideal
import Idealize.ShloMosaic.PureOps.Ideal.Laws
import Idealize.ShloMosaic.Lib.ValueIdx

noncomputable section

namespace Cert.LibExtReal

open Idealize.ShloMosaic
open scoped BigOperators

/-! ## The clamp: under the root, or on the square -/

/-- The coercion of the reals into the extended reals commutes with `max`. -/
theorem coe_max (a b : ℝ) : ((max a b : ℝ) : EReal) = max (a : EReal) (b : EReal) :=
  EReal.coe_strictMono.monotone.map_max

/-- For a real `d ≥ 0` and EVERY extended real `s` (negative, `⊥` and `⊤` included): clamping the
    square root of `s` from below at `d` is the square root of `s` clamped from below at `d * d`.
    (Below zero the root is the junk `⊥`, which the clamp replaces by `d`; on the right the clamp
    replaces `s` by `d * d`, whose root is `d`.) -/
theorem max_sqrt_coe {d : ℝ} (hd : 0 ≤ d) (s : EReal) :
    max (Ideal.sqrt s) (d : EReal) = Ideal.sqrt (max s ((d * d : ℝ) : EReal)) := by
  have hsq : Real.sqrt (d * d) = d := Real.sqrt_mul_self hd
  have hdd : (0 : ℝ) ≤ d * d := mul_self_nonneg d
  induction s using EReal.rec with
  | bot =>
    rw [Ideal.sqrt_bot, max_eq_right bot_le, max_eq_right bot_le, Ideal.sqrt_coe,
      if_neg (not_lt.mpr hdd), hsq]
  | top => rw [Ideal.sqrt_top, max_eq_left le_top, max_eq_left le_top, Ideal.sqrt_top]
  | coe r =>
    rw [Ideal.sqrt_coe]
    by_cases hr : r < 0
    · rw [if_pos hr, max_eq_right bot_le,
        max_eq_right (EReal.coe_le_coe_iff.mpr (hr.le.trans hdd)), Ideal.sqrt_coe,
        if_neg (not_lt.mpr hdd), hsq]
    · have hr0 : 0 ≤ r := not_lt.mp hr
      rw [if_neg hr, ← coe_max, ← coe_max, Ideal.sqrt_coe,
        if_neg (not_lt.mpr (le_max_of_le_left hr0)), Real.sqrt_monotone.map_max, hsq]

/-- For an extended real `m > 0` (`⊤` included) and EVERY extended real `o`: the quotient of `o` by
    the square root of `m` is the product of `o` with the reciprocal square root of `m`. -/
theorem div_sqrt_eq_mul_rsqrt (o : EReal) {m : EReal} (hm : 0 < m) :
    Ideal.div o (Ideal.sqrt m) = o * Ideal.rsqrt m := by
  induction m using EReal.rec with
  | bot => exact absurd hm (not_lt.mpr bot_le)
  | top =>
    rw [Ideal.sqrt_top, Ideal.rsqrt_top, Ideal.div, if_neg EReal.top_ne_zero, EReal.inv_top]
  | coe r =>
    have hr : 0 < r := EReal.coe_pos.mp hm
    have hs : Real.sqrt r ≠ 0 := (Real.sqrt_pos.mpr hr).ne'
    rw [Ideal.sqrt_coe, Ideal.rsqrt_coe, if_neg (not_lt.mpr hr.le), if_neg (not_lt.mpr hr.le),
      if_neg hr.ne', Ideal.div, if_neg (EReal.coe_ne_zero.mpr hs), EReal.coe_inv]

/-- The clamp of a row norm: `2305843 / 2^61`. -/
abbrev D : EReal := ((2305843 / 2305843009213693952 : ℝ) : EReal)

/-- The clamp of a row's sum of squares: `5316911940649 / 2^122`, the square of `D`. -/
abbrev D2 : EReal := ((5316911940649 / 5316911983139663491615228241121378304 : ℝ) : EReal)

/-- The second clamp is the square of the first, as real numbers. -/
theorem d_mul_d_real :
    (2305843 / 2305843009213693952 : ℝ) * (2305843 / 2305843009213693952 : ℝ)
      = 5316911940649 / 5316911983139663491615228241121378304 := by norm_num

/-- `D * D = D2` on the extended reals. -/
theorem D_mul_D : D * D = D2 := by
  show ((2305843 / 2305843009213693952 : ℝ) : EReal) * ((2305843 / 2305843009213693952 : ℝ) : EReal) = _
  rw [← EReal.coe_mul, d_mul_d_real]

/-- `D2` is positive. -/
theorem D2_pos : 0 < D2 := EReal.coe_pos.mpr (by norm_num)

/-- For EVERY extended real `s` (no hypothesis): `max (√s) D = √(max s D2)`. -/
theorem max_sqrt_D (s : EReal) : max (Ideal.sqrt s) D = Ideal.sqrt (max s D2) := by
  have h := max_sqrt_coe (d := 2305843 / 2305843009213693952) (by norm_num) s
  rw [d_mul_d_real] at h
  exact h

/-- For EVERY extended reals `o` and `s` (no finiteness, no sign hypothesis): dividing `o` by the
    clamped root `max (√s) D` is multiplying `o` by the reciprocal root of the clamped square,
    `rsqrt (max s D2)`. -/
theorem div_max_sqrt_D (o s : EReal) :
    Ideal.div o (max (Ideal.sqrt s) D) = o * Ideal.rsqrt (max s D2) := by
  rw [max_sqrt_D, div_sqrt_eq_mul_rsqrt o (lt_of_lt_of_le D2_pos (le_max_right s D2))]

/-- The same through the fields of the exact float instance, as the two programs spell them: the
    host's quotient by the maximum of the host's square root and `D`, against the product with the
    reciprocal square root of the maximum with `D2`. -/
theorem hostDivf_max_sqrt_D {φ : FTy} (o s : Ideal φ) :
    FloatOps.hostDivf o (FloatOps.maximumf (FloatOps.hostUnary .sqrt s) (D : Ideal φ))
      = FloatOps.mulf o (FloatOps.rsqrt (FloatOps.maximumf s (D2 : Ideal φ))) :=
  div_max_sqrt_D o s

/-! ## Finite values

An extended real is finite when it is a coerced real. The finite values are closed under the
operations below; at `⊥` and `⊤` the laws of the next sections fail, so a proof that uses them
first shows its entries finite. -/

/-- `x` is finite: it is the coercion of a real number. -/
def IsReal (x : EReal) : Prop := ∃ r : ℝ, x = (r : EReal)

/-- A coerced real is finite. -/
theorem isReal_coe (r : ℝ) : IsReal (r : EReal) := ⟨r, rfl⟩

/-- Zero is finite. -/
theorem isReal_zero : IsReal 0 := ⟨0, rfl⟩

/-- One is finite. -/
theorem isReal_one : IsReal 1 := ⟨1, rfl⟩

/-- Finite means neither `⊥` nor `⊤`. -/
theorem isReal_iff {x : EReal} : IsReal x ↔ x ≠ ⊥ ∧ x ≠ ⊤ := by
  constructor
  · rintro ⟨r, rfl⟩
    exact ⟨EReal.coe_ne_bot r, EReal.coe_ne_top r⟩
  · rintro ⟨hb, ht⟩
    induction x using EReal.rec with
    | bot => exact absurd rfl hb
    | top => exact absurd rfl ht
    | coe r => exact ⟨r, rfl⟩

/-- Finite means strictly between `⊥` and `⊤`. -/
theorem isReal_iff_lt {x : EReal} : IsReal x ↔ ⊥ < x ∧ x < ⊤ := by
  rw [isReal_iff, bot_lt_iff_ne_bot, lt_top_iff_ne_top]

/-- The sum of two finite values is finite. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- The difference of two finite values is finite. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- The product of two finite values is finite. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The negation of a finite value is finite. -/
theorem IsReal.neg {x : EReal} (hx : IsReal x) : IsReal (-x) := by
  obtain ⟨a, rfl⟩ := hx; exact ⟨-a, (EReal.coe_neg a).symm⟩

/-- The maximum of two finite values is finite. -/
theorem IsReal.max {x y : EReal} (hx : IsReal x) (hy : IsReal y) : IsReal (Max.max x y) := by
  obtain ⟨a, rfl⟩ := hx; obtain ⟨b, rfl⟩ := hy; exact ⟨Max.max a b, (coe_max a b).symm⟩

/-- The minimum of two finite values is finite. -/
theorem IsReal.min {x y : EReal} (hx : IsReal x) (hy : IsReal y) : IsReal (Min.min x y) := by
  obtain ⟨a, rfl⟩ := hx; obtain ⟨b, rfl⟩ := hy
  exact ⟨Min.min a b, (EReal.coe_strictMono.monotone.map_min (a := a) (b := b)).symm⟩

/-- A finite sum of finite values is finite. -/
theorem isReal_sum {ι : Type*} (s : Finset ι) (f : ι → EReal) (h : ∀ i ∈ s, IsReal (f i)) :
    IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

/-- The sum of finite values over a whole finite index type is finite. -/
theorem isReal_sum_univ {ι : Type*} [Fintype ι] (f : ι → EReal) (h : ∀ i, IsReal (f i)) :
    IsReal (∑ i, f i) :=
  isReal_sum Finset.univ f fun i _ => h i

/-- The exact quotient of a finite value by a finite nonzero value is finite. -/
theorem IsReal.div {x y : EReal} (hx : IsReal x) (hy : IsReal y) (h0 : y ≠ 0) :
    IsReal (Ideal.div x y) := by
  obtain ⟨a, rfl⟩ := hx; obtain ⟨b, rfl⟩ := hy
  rw [Ideal.div_coe (EReal.coe_ne_zero.mp h0), ← EReal.coe_mul]
  exact ⟨_, rfl⟩

/-- The exact reciprocal square root of a finite POSITIVE value is finite. -/
theorem IsReal.rsqrt {x : EReal} (hx : IsReal x) (h0 : 0 < x) : IsReal (Ideal.rsqrt x) := by
  obtain ⟨a, rfl⟩ := hx
  have ha : 0 < a := EReal.coe_pos.mp h0
  rw [Ideal.rsqrt_coe, if_neg (not_lt.mpr ha.le), if_neg ha.ne']
  exact ⟨_, rfl⟩

/-- The exact square root of a finite non-negative value is finite. -/
theorem IsReal.sqrt {x : EReal} (hx : IsReal x) (h0 : 0 ≤ x) : IsReal (Ideal.sqrt x) := by
  obtain ⟨a, rfl⟩ := hx
  rw [Ideal.sqrt_coe, if_neg (not_lt.mpr (EReal.coe_nonneg.mp h0))]
  exact ⟨_, rfl⟩

/-- The exact exponential of a finite value is finite. -/
theorem IsReal.exp {x : EReal} (hx : IsReal x) : IsReal (Ideal.exp x) := by
  obtain ⟨a, rfl⟩ := hx; exact ⟨Real.exp a, rfl⟩

/-- The exact logarithm of a finite POSITIVE value is finite. -/
theorem IsReal.log {x : EReal} (hx : IsReal x) (h0 : 0 < x) : IsReal (Ideal.log x) := by
  obtain ⟨a, rfl⟩ := hx
  rw [Ideal.log_coe, if_neg (not_le.mpr (EReal.coe_pos.mp h0))]
  exact ⟨_, rfl⟩

/-- A finite value times itself is non-negative. -/
theorem IsReal.mul_self_nonneg {x : EReal} (hx : IsReal x) : 0 ≤ x * x := by
  obtain ⟨a, rfl⟩ := hx
  rw [← EReal.coe_mul]; exact EReal.coe_nonneg.mpr (_root_.mul_self_nonneg a)

/-- The clamped sum of squares `max s D2` is positive, for every `s`. -/
theorem max_D2_pos (s : EReal) : 0 < Max.max s D2 := lt_of_lt_of_le D2_pos (le_max_right s D2)

/-! ## The variance: mean of squared deviations, or mean of squares less the squared mean -/

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- The exact quotient of two coerced reals, the divisor nonzero, is the coerced quotient. -/
theorem div_coe_coe (a : ℝ) {N : ℝ} (h0 : N ≠ 0) :
    Ideal.div (a : EReal) (N : EReal) = ((a / N : ℝ) : EReal) := by
  rw [Ideal.div_coe h0, ← EReal.coe_mul, mul_one_div]

/-- On the reals, over any finite index type with `N` elements (`N ≠ 0`), with `μ = (∑ x) / N`:
    `(∑ (x i - μ)²) / N = (∑ (x i)²) / N - μ²`. -/
theorem variance_real {ι : Type*} [Fintype ι] (x : ι → ℝ) {N : ℝ} (hN : (Fintype.card ι : ℝ) = N)
    (h0 : N ≠ 0) :
    (∑ i, (x i - (∑ j, x j) / N) ^ 2) / N = (∑ i, x i ^ 2) / N - ((∑ j, x j) / N) ^ 2 := by
  have hsum : ∑ i, (x i - (∑ j, x j) / N) ^ 2
      = ∑ i, x i ^ 2 - 2 * ((∑ j, x j) / N) * ∑ j, x j + N * ((∑ j, x j) / N) ^ 2 := by
    have e : ∀ i, (x i - (∑ j, x j) / N) ^ 2
        = x i ^ 2 - 2 * ((∑ j, x j) / N) * x i + ((∑ j, x j) / N) ^ 2 := fun i => by ring
    simp only [e, Finset.sum_add_distrib, Finset.sum_sub_distrib, ← Finset.mul_sum, Finset.sum_const,
      Finset.card_univ, nsmul_eq_mul, hN]
  rw [hsum]
  field_simp
  ring

/-- The same for `n > 0` rows indexed by `Fin n`. -/
theorem variance_real_fin {n : ℕ} (hn : 0 < n) (x : Fin n → ℝ) :
    (∑ i, (x i - (∑ j, x j) / (n : ℝ)) ^ 2) / (n : ℝ)
      = (∑ i, x i ^ 2) / (n : ℝ) - ((∑ j, x j) / (n : ℝ)) ^ 2 :=
  variance_real x (by rw [Fintype.card_fin]) (Nat.cast_ne_zero.mpr hn.ne')

/-- The same with each square written as a product, as the programs write it. -/
theorem variance_real_mul {ι : Type*} [Fintype ι] (x : ι → ℝ) {N : ℝ} (hN : (Fintype.card ι : ℝ) = N)
    (h0 : N ≠ 0) :
    (∑ i, (x i - (∑ j, x j) / N) * (x i - (∑ j, x j) / N)) / N
      = (∑ i, x i * x i) / N - ((∑ j, x j) / N) * ((∑ j, x j) / N) := by
  have h := variance_real x hN h0
  simp only [pow_two] at h
  exact h

/-- On the extended reals, every entry a coerced real, over the exact operations (the sums are
    the extended reals' own, the quotients `Ideal.div` by the coerced count `N ≠ 0`): with
    `m = (∑ x) / N`, `(∑ (x i - m) * (x i - m)) / N = (∑ x i * x i) / N - m * m`. -/
theorem variance_coe {ι : Type*} [Fintype ι] (x : ι → ℝ) {N : ℝ} (hN : (Fintype.card ι : ℝ) = N)
    (h0 : N ≠ 0) :
    Ideal.div (∑ i, ((x i : EReal) - Ideal.div (∑ j, (x j : EReal)) (N : EReal))
        * ((x i : EReal) - Ideal.div (∑ j, (x j : EReal)) (N : EReal))) (N : EReal)
      = Ideal.div (∑ i, (x i : EReal) * (x i : EReal)) (N : EReal)
        - Ideal.div (∑ j, (x j : EReal)) (N : EReal) * Ideal.div (∑ j, (x j : EReal)) (N : EReal) := by
  simp only [← coe_sum, div_coe_coe _ h0, ← EReal.coe_sub, ← EReal.coe_mul]
  exact congrArg _ (variance_real_mul x hN h0)

/-- The same for finite entries given as extended reals: for `y : ι → EReal` with every `y i`
    finite, `N` the number of indices, and `m = (∑ y) / N`:
    `(∑ (y i - m) * (y i - m)) / N = (∑ y i * y i) / N - m * m`. -/
theorem variance_of_isReal {ι : Type*} [Fintype ι] (y : ι → EReal) (hy : ∀ i, IsReal (y i)) {N : ℝ}
    (hN : (Fintype.card ι : ℝ) = N) (h0 : N ≠ 0) :
    Ideal.div (∑ i, (y i - Ideal.div (∑ j, y j) (N : EReal)) * (y i - Ideal.div (∑ j, y j) (N : EReal)))
        (N : EReal)
      = Ideal.div (∑ i, y i * y i) (N : EReal)
        - Ideal.div (∑ j, y j) (N : EReal) * Ideal.div (∑ j, y j) (N : EReal) := by
  choose x hx using hy
  obtain rfl : y = fun i => (x i : EReal) := funext hx
  exact variance_coe x hN h0

/-- The instance for 100000 rows: `y : Fin 100000 → EReal` finite, the count `100000`. -/
theorem variance_100000 (y : Fin 100000 → EReal) (hy : ∀ i, IsReal (y i)) :
    Ideal.div (∑ i, (y i - Ideal.div (∑ j, y j) ((100000 : ℝ) : EReal))
        * (y i - Ideal.div (∑ j, y j) ((100000 : ℝ) : EReal))) ((100000 : ℝ) : EReal)
      = Ideal.div (∑ i, y i * y i) ((100000 : ℝ) : EReal)
        - Ideal.div (∑ j, y j) ((100000 : ℝ) : EReal) * Ideal.div (∑ j, y j) ((100000 : ℝ) : EReal) :=
  variance_of_isReal y hy (by rw [Fintype.card_fin]; norm_num) (by norm_num)

/-! ## A sum over rows regrouped into equal tiles -/

/-- Row `r` of tile `t`, tiles of `b` rows, is a row of the `a * b`. -/
theorem tile_lt {a b : ℕ} (t : Fin a) (r : Fin b) : b * t.val + r.val < a * b := by
  have ht : t.val + 1 ≤ a := t.isLt
  calc b * t.val + r.val < b * t.val + b := Nat.add_lt_add_left r.isLt _
    _ = b * (t.val + 1) := (Nat.mul_succ b t.val).symm
    _ ≤ b * a := Nat.mul_le_mul_left b ht
    _ = a * b := Nat.mul_comm b a

/-- In any additive commutative monoid (the extended reals included: no finiteness is needed), a
    sum over `a * b` rows is the sum over the `a` tiles of the sums over each tile's `b` rows,
    for ANY way `idx` of writing row `b * t + r` as an index. -/
theorem sum_tiles_idx {M : Type*} [AddCommMonoid M] {a b : ℕ} (f : Fin (a * b) → M)
    (idx : Fin a → Fin b → Fin (a * b)) (hidx : ∀ t r, (idx t r).val = b * t.val + r.val) :
    ∑ t : Fin a, ∑ r : Fin b, f (idx t r) = ∑ i : Fin (a * b), f i := by
  rw [← Equiv.sum_comp finProdFinEquiv f, Fintype.sum_prod_type]
  refine Finset.sum_congr rfl fun t _ => Finset.sum_congr rfl fun r _ => congrArg f (Fin.ext ?_)
  rw [hidx, finProdFinEquiv_apply_val]
  exact Nat.add_comm _ _

/-- The same with the row index written out. -/
theorem sum_tiles {M : Type*} [AddCommMonoid M] {a b : ℕ} (f : Fin (a * b) → M) :
    ∑ t : Fin a, ∑ r : Fin b, f ⟨b * t.val + r.val, tile_lt t r⟩ = ∑ i : Fin (a * b), f i :=
  sum_tiles_idx f (fun t r => ⟨b * t.val + r.val, tile_lt t r⟩) fun _ _ => rfl

/-- 100000 rows in 50 tiles of 2000, for any way `idx` of writing row `2000 * t + r`. -/
theorem sum_tiles_100000_idx {M : Type*} [AddCommMonoid M] (f : Fin 100000 → M)
    (idx : Fin 50 → Fin 2000 → Fin 100000) (hidx : ∀ t r, (idx t r).val = 2000 * t.val + r.val) :
    ∑ t : Fin 50, ∑ r : Fin 2000, f (idx t r) = ∑ i : Fin 100000, f i :=
  sum_tiles_idx (a := 50) (b := 2000) f idx hidx

/-- 100000 rows in 50 tiles of 2000, the row index written out. -/
theorem sum_tiles_100000 {M : Type*} [AddCommMonoid M] (f : Fin 100000 → M) :
    ∑ t : Fin 50, ∑ r : Fin 2000, f ⟨2000 * t.val + r.val, by have := t.isLt; have := r.isLt; omega⟩
      = ∑ i : Fin 100000, f i :=
  sum_tiles_100000_idx f (fun t r => ⟨2000 * t.val + r.val, by have := t.isLt; have := r.isLt; omega⟩)
    fun _ _ => rfl

/-! ## A dot product over a zero-padded axis -/

/-- Extending two families over `Fin n` to `Fin m` (`n ≤ m`) so that, from `n` on, one factor of
    each product is zero, leaves the sum of products unchanged: the added terms are zero. -/
theorem sum_mul_pad {n m : ℕ} (hnm : n ≤ m) (a b : Fin n → EReal) (a' b' : Fin m → EReal)
    (ha : ∀ k : Fin n, a' (Fin.castLE hnm k) = a k) (hb : ∀ k : Fin n, b' (Fin.castLE hnm k) = b k)
    (h0 : ∀ k : Fin m, n ≤ k.val → a' k = 0 ∨ b' k = 0) :
    ∑ k : Fin m, a' k * b' k = ∑ k : Fin n, a k * b k := by
  obtain ⟨d, rfl⟩ := Nat.exists_eq_add_of_le hnm
  rw [Fin.sum_univ_add]
  have hz : ∑ i : Fin d, a' (Fin.natAdd n i) * b' (Fin.natAdd n i) = 0 :=
    Finset.sum_eq_zero fun i _ => by
      rcases h0 (Fin.natAdd n i) (Nat.le_add_right n i.val) with h | h
      · rw [h, zero_mul]
      · rw [h, mul_zero]
  rw [hz, add_zero]
  exact Finset.sum_congr rfl fun k _ => by rw [← ha k, ← hb k]; rfl

/-- The instance met here: `a b : Fin 100 → EReal` extended by zeros to `Fin 128`. -/
theorem sum_mul_pad_100_128 (a b : Fin 100 → EReal) :
    ∑ k : Fin 128, (if h : k.val < 100 then a ⟨k.val, h⟩ else 0) * (if h : k.val < 100 then b ⟨k.val, h⟩ else 0)
      = ∑ k : Fin 100, a k * b k :=
  sum_mul_pad (by decide) a b _ _
    (fun k => by rw [dif_pos (show (Fin.castLE (by decide : 100 ≤ 128) k).val < 100 from k.isLt)]; rfl)
    (fun k => by rw [dif_pos (show (Fin.castLE (by decide : 100 ≤ 128) k).val < 100 from k.isLt)]; rfl)
    (fun k hk => Or.inl (dif_neg (not_lt.mpr hk)))

/-! ## The variance is non-negative, and the tiled form of the statistics -/

/-- For finite entries `y`, any finite centre `m` and a positive count `N`, the mean of the squared
    deviations from `m` is non-negative. -/
theorem variance_nonneg {ι : Type*} [Fintype ι] (y : ι → EReal) (hy : ∀ i, IsReal (y i)) {m : EReal}
    (hm : IsReal m) {N : ℝ} (hN : 0 < N) :
    0 ≤ Ideal.div (∑ i, (y i - m) * (y i - m)) (N : EReal) := by
  choose x hx using hy
  obtain ⟨μ, rfl⟩ := hm
  simp only [hx, ← EReal.coe_sub, ← EReal.coe_mul, ← coe_sum, div_coe_coe _ hN.ne']
  exact EReal.coe_nonneg.mpr (div_nonneg (Finset.sum_nonneg fun i _ => mul_self_nonneg _) hN.le)

/-- The mean of finite entries over a nonzero count is finite. -/
theorem isReal_mean {ι : Type*} [Fintype ι] (y : ι → EReal) (hy : ∀ i, IsReal (y i)) {N : ℝ} (h0 : N ≠ 0) :
    IsReal (Ideal.div (∑ i, y i) (N : EReal)) :=
  (isReal_sum_univ y hy).div (isReal_coe N) (EReal.coe_ne_zero.mpr h0)

/-- The reciprocal square root of a finite non-negative value plus a finite positive one is finite
    (a variance plus its positive offset). -/
theorem isReal_rsqrt_add {v e : EReal} (hv : IsReal v) (he : IsReal e) (hv0 : 0 ≤ v) (he0 : 0 < e) :
    IsReal (Ideal.rsqrt (v + e)) := by
  obtain ⟨a, rfl⟩ := hv; obtain ⟨b, rfl⟩ := he
  have ha : 0 ≤ a := EReal.coe_nonneg.mp hv0
  have hb : 0 < b := EReal.coe_pos.mp he0
  rw [← EReal.coe_add]
  exact (isReal_coe (a + b)).rsqrt (EReal.coe_pos.mpr (add_pos_of_nonneg_of_pos ha hb))

/-- The batch statistics of 100000 finite rows accumulated as 50 tile sums of 2000 rows (`idx t r`
    any spelling of row `2000 * t + r`): the mean of squares less the squared mean, both from the
    tile sums, is the mean of the squared deviations from the mean over all rows. -/
theorem variance_tiles_100000 (y : Fin 100000 → EReal) (hy : ∀ i, IsReal (y i))
    (idx : Fin 50 → Fin 2000 → Fin 100000) (hidx : ∀ t r, (idx t r).val = 2000 * t.val + r.val) :
    Ideal.div (∑ t : Fin 50, ∑ r : Fin 2000, y (idx t r) * y (idx t r)) ((100000 : ℝ) : EReal)
        - Ideal.div (∑ t : Fin 50, ∑ r : Fin 2000, y (idx t r)) ((100000 : ℝ) : EReal)
          * Ideal.div (∑ t : Fin 50, ∑ r : Fin 2000, y (idx t r)) ((100000 : ℝ) : EReal)
      = Ideal.div (∑ i, (y i - Ideal.div (∑ j, y j) ((100000 : ℝ) : EReal))
          * (y i - Ideal.div (∑ j, y j) ((100000 : ℝ) : EReal))) ((100000 : ℝ) : EReal) := by
  rw [sum_tiles_100000_idx (fun i => y i * y i) idx hidx, sum_tiles_100000_idx y idx hidx]
  exact (variance_100000 y hy).symm

/-! ## The float literals that occur, as extended reals -/

/-- The pattern of `100000.0` denotes the real `100000`. -/
theorem ofBits_100000 : Ideal.ofBits .f32 0x47C35000#32 = ((100000 : ℝ) : EReal) := by
  simp [Ideal.ofBits, Ideal.ieee, -EReal.coe_mul]; norm_num

/-- The pattern of `1.0` denotes `1`. -/
theorem ofBits_one : Ideal.ofBits .f32 0x3F800000#32 = 1 := by
  simp [Ideal.ofBits, Ideal.ieee, -EReal.coe_mul]; norm_num

/-- The pattern `0x2B8CBCCC` (the float nearest `1e-12`) denotes `D = 2305843 / 2^61`. -/
theorem ofBits_D : Ideal.ofBits .f32 0x2B8CBCCC#32 = D := by
  simp [Ideal.ofBits, Ideal.ieee, -EReal.coe_mul]; norm_num

/-- The pattern `0x3727C5AC` (the float nearest `1e-5`) denotes `2748779 / 2^38`. -/
theorem ofBits_1em5 : Ideal.ofBits .f32 0x3727C5AC#32 = ((2748779 / 274877906944 : ℝ) : EReal) := by
  simp [Ideal.ofBits, Ideal.ieee, -EReal.coe_mul]; norm_num

/-- That offset is finite. -/
theorem ofBits_1em5_isReal : IsReal (Ideal.ofBits .f32 0x3727C5AC#32) := ofBits_1em5 ▸ isReal_coe _
/-- That offset is positive. -/
theorem ofBits_1em5_pos : 0 < Ideal.ofBits .f32 0x3727C5AC#32 := by
  rw [ofBits_1em5]; exact EReal.coe_pos.mpr (by norm_num)

end Cert.LibExtReal

end
-- ==== Proof.KerApply.lean ====
/-
  The output block of one run of the body, read at an entry `(r, q)`, over the extended reals.

  With `a q` the scale of row `q` of the weight block (the mean of the row's absolute values, clamped below),
  each of the four accumulator updates adds, at `(r, q)`, the sum over a 2048-column chunk of
  `x r k · tern (a q) (w q k)`: the chunk of the weight block is made three-valued by the threshold selects, and the
  matrix product into a zero accumulator is the plain sum over the contracted axis. The four chunk sums, added in
  order from zero, are the sum over all 8192 columns (addition of extended reals is associative and commutative,
  with no finiteness needed); the bias row is added last.
-/
import proofs.«130121_j67053029425862_2_alg».proof.Proof.KerBody
import proofs.«130121_j67053029425862_2_alg».proof.Proof.Spec
import proofs.«130121_j67053029425862_2_alg».proof.Proof.LibExtReal
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.SL.Sem Idealize.ShloMosaic.ValueIdx
open scoped BigOperators

namespace Cert.BitLinear.KerValue

open Cert.KernelIdeal Cert.KernelIdeal.Gen Cert.BitLinear

/-! ## Two layout operations of a kept-dimension column, read at an index -/

/-- An `[a]` array cast to the column `[a, 1]` reads, at `(p, u)`, the operand at `p`. -/
theorem shapeCast_a_a1_apply {a : ℕ} {α : Type} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry of row `p`. -/
theorem broadcastTo_a1_ab_apply {a b : ℕ} {α : Type} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The row scale of a weight block -/

/-- The scale of row `q` of a weight block: the mean of the row's absolute values, clamped below at `eps`. -/
def alphaBlk (x1 : FVec Ideal S256x8192 .f32) (q : Fin 256) : EReal :=
  max (Ideal.div (∑ k : Fin 8192, max (x1 (ix2 q k)) (-(x1 (ix2 q k)))) c8192) eps

/-- The index over row `q` with column `k` inserted is `(q, k)`. -/
theorem lift_row (q : Fin 256) (k : Fin 8192) :
    (reduces_S256x8192_S256 : S256x8192.Reduces [1] S256).lift (ix1 q) k = ix2 q k :=
  funext fun a => Fin.ext (by
    match a with
    | ⟨0, _⟩ => rfl
    | ⟨1, _⟩ => rfl)

/-- The lane sum over the columns of the block's absolute values, at row `q`. -/
theorem rowsum_apply (x1 : FVec Ideal S256x8192 .f32) (hacc : (0x00000000#32 : BitVec 32) = 0x00000000#32) (q : Fin 256) :
    multiReduction .add [1] S256 (absf x1) 0x00000000#32 reduces_S256x8192_S256 (.inl rfl) hacc (ix1 q)
      = ∑ k : Fin 8192, max (x1 (ix2 q k)) (-(x1 (ix2 q k))) := by
  refine (Ideal.multiReduction_add_single (absf x1) 0x00000000#32 reduces_S256x8192_S256 (.inl rfl) hacc (ix1 q)).trans ?_
  refine Finset.sum_congr rfl fun k _ => ?_
  exact congrArg (fun j => max (x1 j) (-(x1 j))) (lift_row q k)

/-- The body's scale column at `(q, u)` is the row scale. -/
theorem pay3_apply (x1 : FVec Ideal S256x8192 .f32) (q : Fin 256) (u : Fin 1) :
    k0_pay3 (F := Ideal) x1 (ix2 q u) = alphaBlk x1 q := by
  unfold k0_pay3 alphaBlk
  show max (Ideal.div (shapeCast S256x1 (multiReduction .add [1] S256 (absf x1) 0x00000000#32 reduces_S256x8192_S256 (.inl rfl) rfl) shapeCasts_S256_S256x1 (ix2 q u)) c8192) eps = _
  refine congrArg (fun s => max (Ideal.div s c8192) eps) ?_
  exact (shapeCast_a_a1_apply _ shapeCasts_S256_S256x1 q u).trans (rowsum_apply x1 rfl q)

/-! ## One accumulator update -/

/-- The threshold selects, read at `(q, k)`: the three-valued entry. -/
theorem sel_apply (α : FVec Ideal S256x1 .f32) (W : FVec Ideal S256x2048 .f32)
    (hb : S256x1.Broadcasts S256x2048) (hc : S256x1.ShapeCasts S256x1) (q : Fin 256) (k : Fin 2048) :
    (select (cmpf .ogt (mulf (broadcast S256x2048 (Scalar.ofBits .f32 0x40000000#32)) (absf W))
        (broadcastTo S256x2048 α hb))
      (select (cmpf .ogt W (broadcast S256x2048 (Scalar.ofBits .f32 0x00000000#32)))
        (broadcastTo S256x2048 (shapeCast S256x1 α hc) hb)
        (broadcastTo S256x2048 (shapeCast S256x1 (subf (broadcast S256x1 (Scalar.ofBits .f32 0x00000000#32)) α) hc) hb))
      (broadcast S256x2048 (Scalar.ofBits .f32 0x00000000#32)) : FVec Ideal S256x2048 .f32) (ix2 q k)
      = tern (α (ix2 q (0 : Fin 1))) (W (ix2 q k)) := by
  have e1 : broadcastTo S256x2048 α hb (ix2 q k) = α (ix2 q (0 : Fin 1)) := broadcastTo_a1_ab_apply α hb q k
  have e2 : broadcastTo S256x2048 (shapeCast S256x1 α hc) hb (ix2 q k) = α (ix2 q (0 : Fin 1)) := by
    rw [shapeCast_self]; exact e1
  have e3 : broadcastTo S256x2048 (shapeCast S256x1 (subf (broadcast S256x1 (Scalar.ofBits .f32 0x00000000#32)) α) hc) hb (ix2 q k)
      = c0 - α (ix2 q (0 : Fin 1)) := by
    rw [shapeCast_self]; exact broadcastTo_a1_ab_apply _ hb q k
  show Scalar.select (Ideal.cmp .ogt (c2 * max (W (ix2 q k)) (-(W (ix2 q k)))) (broadcastTo S256x2048 α hb (ix2 q k)))
      (Scalar.select (Ideal.cmp .ogt (W (ix2 q k)) c0) (broadcastTo S256x2048 (shapeCast S256x1 α hc) hb (ix2 q k))
        (broadcastTo S256x2048 (shapeCast S256x1 (subf (broadcast S256x1 (Scalar.ofBits .f32 0x00000000#32)) α) hc) hb (ix2 q k)))
      c0 = _
  rw [e1, e2, e3, select_ogt, select_ogt]
  rfl

/-- The matrix product of a 2048-column chunk into the zero accumulator, at `(r, q)`: the sum over the chunk's
    columns of the two operands' entries of rows `r` and `q`. -/
theorem mm_apply (X : FVec Ideal S16x2048 .bf16) (Wq : FVec Ideal S256x2048 .bf16) (r : Fin 16) (q : Fin 256) :
    matmul dot_S16x2048_S256x2048_S16x256_1_1_0_0_n_n none X Wq (constant S16x256 .f32 0x00000000#32) (ix2 r q)
      = ∑ k : Fin 2048, X (ix2 r k) * Wq (ix2 q k) := by
  simp only [matmul]
  rw [Ideal.matmul_constant_zero_apply,
    ← Equiv.sum_comp (ValueIdx.contrEquiv1 dot_S16x2048_S256x2048_S16x256_1_1_0_0_n_n 2048 rfl rfl).symm]
  refine Finset.sum_congr rfl fun k _ => ?_
  have hk := ValueIdx.contrEquiv1_symm_val dot_S16x2048_S256x2048_S16x256_1_1_0_0_n_n 2048 rfl rfl k
  have el : dot_S16x2048_S256x2048_S16x256_1_1_0_0_n_n.lhsIdx (ix2 r q)
      ((ValueIdx.contrEquiv1 dot_S16x2048_S256x2048_S16x256_1_1_0_0_n_n 2048 rfl rfl).symm k) = ix2 r k :=
    funext fun a => Fin.ext (by
      match a with
      | ⟨0, _⟩ =>
        show (dot_S16x2048_S256x2048_S16x256_1_1_0_0_n_n.lhsIdx (ix2 r q) _ 0).val = r.val
        unfold DotDims.lhsIdx
        rw [dif_neg (show ¬(0 : Fin S16x2048.rank) ∈ dot_S16x2048_S256x2048_S16x256_1_1_0_0_n_n.lhsBatch by decide),
          dif_pos (show (0 : Fin S16x2048.rank) ∈ dot_S16x2048_S256x2048_S16x256_1_1_0_0_n_n.lhsNonContracting by decide)]
        rfl
      | ⟨1, _⟩ => exact (dot_S16x2048_S256x2048_S16x256_1_1_0_0_n_n.lhsIdx_val_of_single rfl _ _).trans hk)
  have er : dot_S16x2048_S256x2048_S16x256_1_1_0_0_n_n.rhsIdx (ix2 r q)
      ((ValueIdx.contrEquiv1 dot_S16x2048_S256x2048_S16x256_1_1_0_0_n_n 2048 rfl rfl).symm k) = ix2 q k :=
    funext fun a => Fin.ext (by
      match a with
      | ⟨0, _⟩ =>
        show (dot_S16x2048_S256x2048_S16x256_1_1_0_0_n_n.rhsIdx (ix2 r q) _ 0).val = q.val
        unfold DotDims.rhsIdx
        rw [dif_neg (show ¬(0 : Fin S256x2048.rank) ∈ dot_S16x2048_S256x2048_S16x256_1_1_0_0_n_n.rhsBatch by decide),
          dif_pos (show (0 : Fin S256x2048.rank) ∈ dot_S16x2048_S256x2048_S16x256_1_1_0_0_n_n.rhsNonContracting by decide)]
        rfl
      | ⟨1, _⟩ => exact (dot_S16x2048_S256x2048_S16x256_1_1_0_0_n_n.rhsIdx_val_of_single rfl _ _).trans hk)
  rw [el, er]

/-- ONE UPDATE of the accumulator, at `(r, q)`: what it held plus the chunk's sum of
    `x r k · tern (scale q) (w q k)`. -/
theorem pay7_apply (α : FVec Ideal S256x1 .f32) (W : FVec Ideal S256x2048 .f32) (X : FVec Ideal S16x2048 .f32)
    (acc : FVec Ideal S16x256 .f32) (r : Fin 16) (q : Fin 256) :
    k0_pay7 (F := Ideal) α W X acc (ix2 r q)
      = acc (ix2 r q) + ∑ k : Fin 2048, X (ix2 r k) * tern (α (ix2 q (0 : Fin 1))) (W (ix2 q k)) := by
  unfold k0_pay7
  rw [shapeCast_self]
  refine congrArg (fun s => acc (ix2 r q) + s) ?_
  refine (mm_apply _ _ r q).trans ?_
  refine Finset.sum_congr rfl fun k _ => ?_
  refine congrArg₂ (· * ·) ?_ ?_
  · show shapeCast S16x2048 X shapeCasts_S16x2048_S16x2048 (ix2 r k) = X (ix2 r k)
    rw [shapeCast_self]
  · exact sel_apply α W broadcasts_S256x1_S256x2048 shapeCasts_S256x1_S256x1 q k

/-- The zero block the accumulator starts from. -/
theorem pay4_apply (j : S16x256.Idx) : k0_pay4 (F := Ideal) j = c0 := by
  unfold k0_pay4
  rw [shapeCast_self]
  rfl

/-- The bias row added to the accumulator, at `(r, q)`. -/
theorem pay2_apply (acc : FVec Ideal S16x256 .f32) (x2 : FVec Ideal S1x256 .f32) (r : Fin 16) (q : Fin 256) :
    k0_pay2 (F := Ideal) acc x2 (ix2 r q) = acc (ix2 r q) + x2 (ix2 (0 : Fin 1) q) := by
  unfold k0_pay2
  refine congrArg (fun s => acc (ix2 r q) + s) ?_
  rw [shapeCast_self]
  exact broadcastTo_1b_ab_apply x2 broadcasts_S1x256_S16x256 r q

/-! ## The chunks of the two blocks, read at an index -/

theorem wCols_apply (x1 : FVec Ideal S256x8192 .f32) (off : Nat) (h : off + 2048 ≤ 8192) (q : Fin 256) (k : Fin 2048) :
    wCols (F := Ideal) x1 off h (ix2 q k) = x1 (ix2 q ⟨off + k.val, by have := k.isLt; omega⟩) :=
  congrArg x1 (funext fun a => Fin.ext (by
    match a with
    | ⟨0, _⟩ => show 0 + 1 * q.val = q.val; omega
    | ⟨1, _⟩ => show off + 1 * k.val = off + k.val; omega))

theorem xCols_apply (x0 : FVec Ideal S16x8192 .f32) (off : Nat) (h : off + 2048 ≤ 8192) (r : Fin 16) (k : Fin 2048) :
    xCols (F := Ideal) x0 off h (ix2 r k) = x0 (ix2 r ⟨off + k.val, by have := k.isLt; omega⟩) :=
  congrArg x0 (funext fun a => Fin.ext (by
    match a with
    | ⟨0, _⟩ => show 0 + 1 * r.val = r.val; omega
    | ⟨1, _⟩ => show off + 1 * k.val = off + k.val; omega))

/-! ## The whole body at an entry -/

/-- The body is four updates from the zero block, then the bias: the payloads that split one update's
    operations across two statements are that update's term. -/
theorem body_eq (x0 : FVec Ideal S16x8192 .f32) (x1 : FVec Ideal S256x8192 .f32) (x2 : FVec Ideal S1x256 .f32) :
    body (F := Ideal) x0 x1 x2
      = k0_pay2 (F := Ideal) (k0_pay7 (F := Ideal) (k0_pay3 (F := Ideal) x1) (wCols (F := Ideal) x1 6144 (by decide)) (xCols (F := Ideal) x0 6144 (by decide))
          (k0_pay7 (F := Ideal) (k0_pay3 (F := Ideal) x1) (wCols (F := Ideal) x1 4096 (by decide)) (xCols (F := Ideal) x0 4096 (by decide))
            (k0_pay7 (F := Ideal) (k0_pay3 (F := Ideal) x1) (wCols (F := Ideal) x1 2048 (by decide)) (xCols (F := Ideal) x0 2048 (by decide))
              (k0_pay7 (F := Ideal) (k0_pay3 (F := Ideal) x1) (wCols (F := Ideal) x1 0 (by decide)) (xCols (F := Ideal) x0 0 (by decide))
                (k0_pay4 (F := Ideal)))))) x2 := rfl

/-- The sum of one chunk, with the block entries written out. -/
theorem chunk_sum (x0 : FVec Ideal S16x8192 .f32) (x1 : FVec Ideal S256x8192 .f32) (off : Nat) (h : off + 2048 ≤ 8192)
    (r : Fin 16) (q : Fin 256) :
    ∑ k : Fin 2048, xCols (F := Ideal) x0 off h (ix2 r k) * tern (k0_pay3 (F := Ideal) x1 (ix2 q (0 : Fin 1))) (wCols (F := Ideal) x1 off h (ix2 q k))
      = ∑ k : Fin 2048, x0 (ix2 r ⟨off + k.val, by have := k.isLt; omega⟩)
          * tern (alphaBlk x1 q) (x1 (ix2 q ⟨off + k.val, by have := k.isLt; omega⟩)) :=
  Finset.sum_congr rfl fun k _ => by rw [xCols_apply, wCols_apply, pay3_apply]

/-- THE OUTPUT BLOCK AT AN ENTRY: the sum over all 8192 columns of `x r k · tern (scale q) (w q k)`, plus the
    bias entry of column `q`. -/
theorem body_apply (x0 : FVec Ideal S16x8192 .f32) (x1 : FVec Ideal S256x8192 .f32) (x2 : FVec Ideal S1x256 .f32)
    (r : Fin 16) (q : Fin 256) :
    body (F := Ideal) x0 x1 x2 (ix2 r q)
      = (∑ k : Fin 8192, x0 (ix2 r k) * tern (alphaBlk x1 q) (x1 (ix2 q k))) + x2 (ix2 (0 : Fin 1) q) := by
  rw [body_eq, pay2_apply, pay7_apply, pay7_apply, pay7_apply, pay7_apply, pay4_apply,
    chunk_sum, chunk_sum, chunk_sum, chunk_sum]
  refine congrArg (fun s => s + x2 (ix2 (0 : Fin 1) q)) ?_
  have hs := Cert.LibExtReal.sum_tiles (a := 4) (b := 2048)
    (fun k : Fin (4 * 2048) => x0 (ix2 r k) * tern (alphaBlk x1 q) (x1 (ix2 q k)))
  rw [Fin.sum_univ_four] at hs
  rw [show c0 = (0 : EReal) from Ideal.ofBits_zero_f32, zero_add]
  exact hs

end Cert.BitLinear.KerValue

end
-- ==== Proof.KerArray.lean ====
/-
  From the output blocks to the whole result array of the kernel.

  Grid point `t` (of 32) reads the whole activation array, rows `256 t … 256 t + 255` of the weight array and
  columns `256 t … 256 t + 255` of the bias row, and writes columns `256 t … 256 t + 255` of the result. An entry
  `(r, q)` of the block it writes is the layer's entry `(r, 256 t + q)`: the row scale of row `q` of the weight
  block is the row scale of row `256 t + q` of the array, since the block holds whole rows. The 32 blocks cover the
  result array, which therefore ends holding the layer `G` of the activations as the region finds them (the host's
  quantization of `x`, the very function of `x` the reference computes first), the weight array and the bias.
-/
import proofs.«130121_j67053029425862_2_alg».proof.Proof.KerApply
import proofs.«130121_j67053029425862_2_alg».proof.Proof.Gen.KernelIdeal.Value
import Idealize.ShloMosaic.Lib.ValueLayout

noncomputable section

open Idealize.ShloMosaic Idealize.ShloMosaic.TcCoe Idealize.SL.Sem Idealize.ShloMosaic.ValueIdx
open Idealize.ShloMosaic.Pipeline (Dat)
open scoped BigOperators

namespace Cert.BitLinear.KerValue

open Cert.KernelIdeal Cert.KernelIdeal.Gen Cert.BitLinear

/-! ## One entry of a block is one entry of the layer -/

/-- If the three blocks are the activation array, rows `256 T …` of the weight array and columns `256 T …` of
    the bias row, then entry `(r, q)` of the body's result is entry `(r, 256 T + q)` of the layer. -/
theorem entry_eq (xq : Mat 16 8192) (w : Mat 8192 8192) (bb : (⟨2, ![1, 8192]⟩ : Shape).Idx → EReal)
    (x0 : FVec Ideal S16x8192 .f32) (x1 : FVec Ideal S256x8192 .f32) (x2 : FVec Ideal S1x256 .f32)
    (T : Nat) (hT : T < 32) (r : Fin 16) (q : Fin 256)
    (h0 : ∀ k : Fin 8192, x0 (ix2 r k) = xq (ix2 r k))
    (h1 : ∀ k : Fin 8192, x1 (ix2 q k) = w (ix2 (⟨256 * T + q.val, by have := q.isLt; omega⟩ : Fin 8192) k))
    (h2 : x2 (ix2 (0 : Fin 1) q) = bb (ix2 (0 : Fin 1) (⟨256 * T + q.val, by have := q.isLt; omega⟩ : Fin 8192))) :
    body (F := Ideal) x0 x1 x2 (ix2 r q)
      = G xq w (fun i => bb (ix2 (0 : Fin 1) (i 0))) (ix2 r (⟨256 * T + q.val, by have := q.isLt; omega⟩ : Fin 8192)) := by
  rw [body_apply]
  have ha : alphaBlk x1 q = alpha w (⟨256 * T + q.val, by have := q.isLt; omega⟩ : Fin 8192) := by
    unfold alphaBlk alpha
    refine congrArg (fun s => max (Ideal.div s c8192) eps) (Finset.sum_congr rfl fun k _ => ?_)
    rw [h1 k]
  unfold G
  show _ = (∑ k : Fin 8192, xq (ix2 r k) * tern (alpha w (⟨256 * T + q.val, _⟩ : Fin 8192)) (w (ix2 (⟨256 * T + q.val, _⟩ : Fin 8192) k)))
      + bb (ix2 (0 : Fin 1) (⟨256 * T + q.val, _⟩ : Fin 8192))
  rw [ha, h2]
  refine congrArg (fun s => s + bb (ix2 (0 : Fin 1) (⟨256 * T + q.val, _⟩ : Fin 8192))) (Finset.sum_congr rfl fun k _ => ?_)
  rw [h0 k, h1 k]

/-! ## The blocks of the four windows, for any arrays -/

/-- The printed index maps over the grid: the activation window stays at block (0, 0), the weight window is at
    block row `t`, the bias and result windows at block column `t`. -/
theorem idx_facts : ∀ t : Fin cfg0.N, win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val :=
  (by decide +kernel : ∀ t : Fin grid0.N, _)

/-- The activation window's block is the whole array. -/
theorem read0 (A0 : S16x8192.Idx → EReal) (t : Fin cfg0.N) (r : Fin 16) (k : Fin 8192) :
    ((cfg0.win 0).blk t).view.read (Elt Ideal) A0 (ix2 r k) = A0 (ix2 r k) := by
  obtain ⟨e00, e01, -⟩ := idx_facts t
  show A0 (((cfg0.win 0).blk t).view.emb (ix2 r k)) = A0 (ix2 r k)
  refine congrArg A0 (funext fun a => Fin.ext ?_)
  match a with
  | ⟨0, _⟩ => show win0_0.index t (0 : Fin 2) * 16 + 1 * r.val = r.val; omega
  | ⟨1, _⟩ => show win0_0.index t (1 : Fin 2) * 8192 + 1 * k.val = k.val; omega

/-- The weight window's block at point `t` is rows `256 t … 256 t + 255`. -/
theorem read1 (A1 : S8192x8192.Idx → EReal) (t : Fin cfg0.N) (hN : t.val < 32) (q : Fin 256) (k : Fin 8192) :
    ((cfg0.win 1).blk t).view.read (Elt Ideal) A1 (ix2 q k)
      = A1 (ix2 (⟨256 * t.val + q.val, by have := q.isLt; omega⟩ : Fin 8192) k) := by
  obtain ⟨-, -, e10, e11, -⟩ := idx_facts t
  show A1 (((cfg0.win 1).blk t).view.emb (ix2 q k)) = _
  refine congrArg A1 (funext fun a => Fin.ext ?_)
  match a with
  | ⟨0, _⟩ => show win0_1.index t (0 : Fin 2) * 256 + 1 * q.val = 256 * t.val + q.val; omega
  | ⟨1, _⟩ => show win0_1.index t (1 : Fin 2) * 8192 + 1 * k.val = k.val; omega

/-- The bias window's block at point `t` is columns `256 t … 256 t + 255` of the one row. -/
theorem read2 (A2 : S1x8192.Idx → EReal) (t : Fin cfg0.N) (hN : t.val < 32) (q : Fin 256) :
    ((cfg0.win 2).blk t).view.read (Elt Ideal) A2 (ix2 (0 : Fin 1) q)
      = A2 (ix2 (0 : Fin 1) (⟨256 * t.val + q.val, by have := q.isLt; omega⟩ : Fin 8192)) := by
  obtain ⟨-, -, -, -, e20, e21, -⟩ := idx_facts t
  show A2 (((cfg0.win 2).blk t).view.emb (ix2 (0 : Fin 1) q)) = _
  refine congrArg A2 (funext fun a => Fin.ext ?_)
  match a with
  | ⟨0, _⟩ => show win0_2.index t (0 : Fin 2) * 1 + 1 * 0 = 0; omega
  | ⟨1, _⟩ => show win0_2.index t (1 : Fin 2) * 256 + 1 * q.val = 256 * t.val + q.val; omega

/-- The result window's block at point `t` is columns `256 t … 256 t + 255`. -/
theorem read3 (A : S16x8192.Idx → EReal) (t : Fin cfg0.N) (hN : t.val < 32) (r : Fin 16) (q : Fin 256) :
    ((cfg0.win 3).blk t).view.read (Elt Ideal) A (ix2 r q)
      = A (ix2 r (⟨256 * t.val + q.val, by have := q.isLt; omega⟩ : Fin 8192)) := by
  obtain ⟨-, -, -, -, -, -, e30, e31⟩ := idx_facts t
  show A (((cfg0.win 3).blk t).view.emb (ix2 r q)) = _
  refine congrArg A (funext fun a => Fin.ext ?_)
  match a with
  | ⟨0, _⟩ => show win0_3.index t (0 : Fin 2) * 16 + 1 * r.val = r.val; omega
  | ⟨1, _⟩ => show win0_3.index t (1 : Fin 2) * 256 + 1 * q.val = 256 * t.val + q.val; omega

variable (m : (ℓ : Loc nD τ sig) → Buf (Elt Ideal) ℓ) (ρ : Dev nD → PrngReg)

/-- Each input window's block is its array, as the region finds it, read through the window. -/
theorem iblk0_eq (c : Dev nD) (t : Fin cfg0.N) :
    iblk m c 0 t = ((cfg0.win 0).blk t).view.read (Elt Ideal) (V m c main_v9) := rfl
theorem iblk1_eq (c : Dev nD) (t : Fin cfg0.N) :
    iblk m c 1 t = ((cfg0.win 1).blk t).view.read (Elt Ideal) (V m c main_arg1) := rfl
theorem iblk2_eq (c : Dev nD) (t : Fin cfg0.N) :
    iblk m c 2 t = ((cfg0.win 2).blk t).view.read (Elt Ideal) (V m c main_v10) := rfl

/-! ## What each point writes back -/

/-- WHAT POINT `t` WRITES BACK is block `t` of any array `A` that the body's result agrees with, entry by
    entry, at columns `256 t + q`. -/
theorem flushed_eq_of (c : Dev nD) (t : Fin cfg0.N) (hN : t.val < 32) (A : S16x8192.Idx → EReal)
    (hA : ∀ (r : Fin 16) (q : Fin 256),
      body (F := Ideal) (iblk m c 0 t) (iblk m c 1 t) (iblk m c 2 t) (ix2 r q)
        = A (ix2 r (⟨256 * t.val + q.val, by have := q.isLt; omega⟩ : Fin 8192))) :
    (dats m 0 c).flushed 3 t = ((cfg0.win 3).blk t).view.read (Elt Ideal) A := by
  rw [Value.flushed3_A, out_A]
  generalize body (F := Ideal) (iblk m c 0 t) (iblk m c 1 t) (iblk m c 2 t) = B at hA ⊢
  funext j
  obtain ⟨r, q, rfl⟩ : ∃ (r : Fin 16) (q : Fin 256), j = ix2 r q := ⟨j 0, j 1, eq_ix2 j⟩
  rw [read3 A t hN r q]
  exact hA r q

end Cert.BitLinear.KerValue

end
-- ==== Proof.KerHost.lean ====
/-
  The two arrays the host prepares before the kernel runs, as functions of the inputs.

  The activations are quantized on the host by the same operations, in the same order, as the reference applies
  to `x` first: the maximum of `|x|` clamped below, the scale `127 / ·`, the product rounded to the nearest
  integer (ties to even) and clamped to `[-127, 127]`, divided by the scale again. The maximum over the whole
  array is never opened: it is the same term on both sides. The bias is given a leading unit axis.
-/
import proofs.«130121_j67053029425862_2_alg».proof.Proof.Gen.KernelIdeal.Frame
import proofs.«130121_j67053029425862_2_alg».proof.Proof.Gen.ReferenceIdeal.Read
import Idealize.ShloMosaic.Lib.StableHlo.Run

noncomputable section

open Idealize.ShloMosaic Idealize.ShloMosaic.TcCoe Idealize.SL.Sem

namespace Cert.BitLinear.KerValue

open Cert.KernelIdeal Cert.KernelIdeal.Gen

/-! ## Contents carried to a buffer's own type and back are the contents -/

theorem ofBuf_toBuf {T : BufTy} (x : StableHlo.TRef sig T) (v : T.Contents (Elt Ideal)) : x.ofBuf (x.toBuf v) = v := by
  obtain ⟨r, h, h2, h3⟩ := x
  subst h
  rfl

theorem toBuf_v7 (v : FVec Ideal S16x8192 .f32) :
    ((StableHlo.TRef.of (sig := sig) (T := ⟨S16x8192, .f32⟩) main_v7).toBuf (Val := Elt Ideal) v : FVec Ideal S16x8192 .f32) = v := rfl

theorem ofBuf_v5 (v : FVec Ideal S16x8192 .f32) :
    (StableHlo.TRef.of (sig := sig) (T := ⟨S16x8192, .f32⟩) main_v5).ofBuf (Val := Elt Ideal) v = v := rfl

theorem ofBuf_cst2 (v : FVec Ideal S_ .f32) :
    (StableHlo.TRef.of (sig := sig) (T := ⟨S_, .f32⟩) main_cst_2).ofBuf (Val := Elt Ideal) v = v := rfl

theorem ofBuf_cst3 (v : FVec Ideal S_ .f32) :
    (StableHlo.TRef.of (sig := sig) (T := ⟨S_, .f32⟩) main_cst_3).ofBuf (Val := Elt Ideal) v = v := rfl

variable (m : (ℓ : Loc nD τ sig) → Buf (Elt Ideal) ℓ)

/-- The activations the region finds are the host's quantization of `x`: the very function of `x` the
    reference computes first. -/
theorem V_v9 (c : Dev nD) :
    (V m c main_v9 : S16x8192.Idx → EReal)
      = Cert.ReferenceIdeal.Read.val_main_v9 (F := Ideal) (m ((c : Thread nD τ).loc main_arg0)) := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results
  show _ = Cert.ReferenceIdeal.Read.val_main_v9 (F := Ideal) (m (c, Proc.devRef .tc main_arg0))
  generalize m (c, Proc.devRef .tc main_arg0) = x
  have hs : ∀ y : FVec Ideal S16x8192 .f32,
      Host.reduce (FloatOps.maximumf (F := Ideal)) (Host.absf y) (constant (F := Ideal) S_ .f32 0xFF800000#32) reducesTo_S16x8192_S_d0_1 h_S_
        = Cert.ReferenceIdeal.Read.val_main_v1 (F := Ideal) y := fun _ => rfl
  rw [hs x]
  unfold Cert.ReferenceIdeal.Read.val_main_v9 Cert.ReferenceIdeal.Read.val_main_v8 Cert.ReferenceIdeal.Read.val_main_v7
    Cert.ReferenceIdeal.Read.val_main_call1_v4 Cert.ReferenceIdeal.Read.val_main_call1_v3 Cert.ReferenceIdeal.Read.val_main_call1_v2
    Cert.ReferenceIdeal.Read.val_main_call1_v1 Cert.ReferenceIdeal.Read.val_main_call1_v0 Cert.ReferenceIdeal.Read.val_main_v6
    Cert.ReferenceIdeal.Read.val_main_v5 Cert.ReferenceIdeal.Read.val_main_v4 Cert.ReferenceIdeal.Read.val_main_v3
    Cert.ReferenceIdeal.Read.val_main_v2
    Cert.ReferenceIdeal.Read.val_main_cst_0 Cert.ReferenceIdeal.Read.val_main_cst_1
    Cert.ReferenceIdeal.Read.val_main_cst_2 Cert.ReferenceIdeal.Read.val_main_cst_3
  generalize Cert.ReferenceIdeal.Read.val_main_v1 (F := Ideal) x = s
  rw [toBuf_v7]
  simp only [ofBuf_toBuf]
  rw [ofBuf_v5, ofBuf_cst2, ofBuf_cst3]

/-- The bias row the region finds is the bias array with a leading unit axis. -/
theorem V_v10 (c : Dev nD) :
    (V m c main_v10 : S1x8192.Idx → EReal)
      = shapeCast S1x8192 (m ((c : Thread nD τ).loc main_arg2)) shapeCasts_S8192_S1x8192 := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results
  rfl

end Cert.BitLinear.KerValue

end
-- ==== Proof.KerFinal.lean ====
/-
  The kernel's result array is the layer `G` of the quantized activations, the weights and the bias.

  Each of the 32 grid points writes back block `t` of the layer (its block entries are the layer's entries at
  columns `256 t + q`, the three input blocks being the arrays read through their windows); column `j` of the
  result lies in the block of point `j / 256`, so the blocks cover the array, which ends holding the layer. The
  arrays the region finds are then named by the inputs: the activations are the host's quantization of `x`, the
  weights are `w` itself, the bias row is `bias` with a unit axis.
-/
import proofs.«130121_j67053029425862_2_alg».proof.Proof.KerArray
import proofs.«130121_j67053029425862_2_alg».proof.Proof.KerHost

noncomputable section

open Idealize.ShloMosaic Idealize.ShloMosaic.TcCoe Idealize.SL.Sem Idealize.ShloMosaic.ValueIdx
open Idealize.ShloMosaic.Pipeline (Dat)
open scoped BigOperators

namespace Cert.BitLinear.KerValue

open Cert.KernelIdeal Cert.KernelIdeal.Gen Cert.BitLinear

variable (m : (ℓ : Loc nD τ sig) → Buf (Elt Ideal) ℓ) (ρ : Dev nD → PrngReg)

/-- WHAT POINT `t` WRITES BACK is block `t` of the layer of the arrays as the region finds them. -/
theorem flushed_eq (c : Dev nD) (t : Fin cfg0.N) :
    (dats m 0 c).flushed 3 t = ((cfg0.win 3).blk t).view.read (Elt Ideal)
      (G (V m c main_v9) (V m c main_arg1) (fun i => (V m c main_v10 : S1x8192.Idx → EReal) (ix2 (0 : Fin 1) (i 0)))) := by
  have hN : t.val < 32 := by have h := t.isLt; have e : cfg0.N = 32 := N_0; omega
  refine flushed_eq_of m c t hN _ fun r q => ?_
  refine entry_eq (V m c main_v9) (V m c main_arg1) (V m c main_v10) (iblk m c 0 t) (iblk m c 1 t) (iblk m c 2 t)
    t.val hN r q ?_ ?_ ?_
  · intro k; rw [iblk0_eq]; exact read0 _ t r k
  · intro k; rw [iblk1_eq]; exact read1 _ t hN q k
  · rw [iblk2_eq]; exact read2 _ t hN q

/-- The 32 blocks cover the result array, which ends holding the layer. -/
theorem final (c : Dev nD) :
    (dats m 0 c).arrAt 3 cfg0.N
      = G (V m c main_v9) (V m c main_arg1) (fun i => (V m c main_v10 : S1x8192.Idx → EReal) (ix2 (0 : Fin 1) (i 0))) :=
  (dats m 0 c).arrAt_eq_of_cover 3 _ (fun t _ => flushed_eq m c t) fun (i : S16x8192.Idx) => by
    have hi0 : (i 0).val < 16 := (i 0).isLt
    have hi1 : (i 1).val < 8192 := (i 1).isLt
    have hN : cfg0.N = 32 := N_0
    have ht : (i 1).val / 256 < cfg0.N := by rw [hN]; omega
    obtain ⟨-, -, -, -, -, -, e30, e31⟩ := idx_facts ⟨(i 1).val / 256, ht⟩
    refine ⟨⟨(i 1).val / 256, ht⟩, flush0_3 _, ?_⟩
    show i ∈ ((View.whole main_v11).slice (win0_3.rect ⟨(i 1).val / 256, ht⟩)).set
    rw [View.set_slice_whole, Rect.mem_set_unit]
    intro a
    match a with
    | ⟨0, _⟩ =>
      show win0_3.index ⟨(i 1).val / 256, ht⟩ (0 : Fin 2) * 16 ≤ (i 0).val
        ∧ (i 0).val < win0_3.index ⟨(i 1).val / 256, ht⟩ (0 : Fin 2) * 16 + 16
      omega
    | ⟨1, _⟩ =>
      show win0_3.index ⟨(i 1).val / 256, ht⟩ (1 : Fin 2) * 256 ≤ (i 1).val
        ∧ (i 1).val < win0_3.index ⟨(i 1).val / 256, ht⟩ (1 : Fin 2) * 256 + 256
      have e : win0_3.index ⟨(i 1).val / 256, ht⟩ (1 : Fin 2) = (i 1).val / 256 := e31
      omega

/-- The bias row, read at column `o`, is the bias entry `o`. -/
theorem bias_row (c : Dev nD) :
    (fun i : (⟨1, ![8192]⟩ : Shape).Idx => (V m c main_v10 : S1x8192.Idx → EReal) (ix2 (0 : Fin 1) (i 0)))
      = m ((c : Thread nD τ).loc main_arg2) := by
  funext i
  rw [V_v10, eq_ix1 i]
  exact shapeCast_a_1a_apply _ _ (0 : Fin 1) (i 0)

/-- THE RESULT ARRAY in terms of the inputs. -/
theorem final_args (c : Dev nD) :
    (dats m 0 c).arrAt 3 cfg0.N
      = G (Cert.ReferenceIdeal.Read.val_main_v9 (F := Ideal) (m ((c : Thread nD τ).loc main_arg0)))
          (m ((c : Thread nD τ).loc main_arg1)) (m ((c : Thread nD τ).loc main_arg2)) := by
  rw [final m c, bias_row m c, V_v9 m c, V_main_arg1 m c]

/-- The kernel's run with its result array named: every weakly fair execution terminates with the result at the
    layer of the inputs and the arguments unchanged. -/
theorem run : θ_run defs (onTc (τ := τ) (main (F := Ideal))) ⟨m, fun _ => 0, ρ⟩ fun r => ∀ c : Dev nD,
      r.2.mem ((c : Thread nD τ).loc main_v11)
        = G (Cert.ReferenceIdeal.Read.val_main_v9 (F := Ideal) (m ((c : Thread nD τ).loc main_arg0)))
            (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final_args m c), (h c).2⟩) (Value.run_blocks m ρ)

end Cert.BitLinear.KerValue

end
-- ==== Proof.RefValue.lean ====
/-
  The reference program's result, read at one index.

  The reference computes `out = xq · wqᵀ + bias`. Its weight operand is the straight-through form
  `w + (ŵ - w)` with `ŵ = clamp (round (w / a)) · a`, the rounding to nearest with ties to even, the clamp to
  `[-1, 1]`, and `a` the row's scale: the mean of the row's absolute values, clamped below at `eps`. Read entry by
  entry that is `ternRound (alpha w o) (w o k)`. Its activation operand is `x + (q - x)` with `q` the
  quantised activations, which stay an opaque stage here. The result at `(r, o)` is then the sum over the
  8192 columns `k` of the products of the two operands at `(r, k)` and `(o, k)`, plus the bias at `o`.
-/
import proofs.«130121_j67053029425862_2_alg».proof.Proof.Gen.ReferenceIdeal.Read
import proofs.«130121_j67053029425862_2_alg».proof.Proof.Spec
import Idealize.ShloMosaic.Lib.ValueIdx
import Idealize.ShloMosaic.PureOps.Ideal.Laws
noncomputable section
namespace Cert.BitLinear.RefValue
open Idealize.ShloMosaic Idealize.ShloMosaic.ValueIdx Cert.BitLinear Cert.ReferenceIdeal Cert.ReferenceIdeal.Read
open scoped BigOperators

/-! ## The row scale -/

/-- The index at which the row sum reads the absolute values: row `j 0`, column `k`. -/
private theorem idx_sum (j : Cert.ReferenceIdeal.S8192x1.Idx) (k : Fin 8192) :
    idx_main_v13 (idx_main_v14 j) k = ix2 (j 0) k :=
  funext fun a => match a with | ⟨0, _⟩ => rfl | ⟨1, _⟩ => rfl

/-- The scale column at row `j 0` is that row's `alpha`: the initial value of the sum is zero, the divisor is
    the number of columns, the lower clamp is `eps`. -/
private theorem scale_apply (w : FVec Ideal Cert.ReferenceIdeal.S8192x8192 .f32) (j : Cert.ReferenceIdeal.S8192x1.Idx) :
    val_main_v18 (F := Ideal) w j = alpha w (j 0) := by
  rw [val_main_v18_apply, val_main_v16_apply, val_main_v14_apply, val_main_v13_apply, val_main_v15_apply,
    val_main_v17_apply, val_main_cst_4_apply, val_main_cst_5_apply, val_main_cst_6_apply]
  simp only [val_main_v12_apply, idx_sum, Ideal.hostDivf_def, Ideal.hostAbsf_def, Ideal.absf_def, Ideal.maximumf_def,
    Ideal.ofBits_def, Ideal.ofBits_zero_f32, zero_add]
  rfl

/-! ## The two operands of the product -/

/-- The weight operand at `(o, k)`: the straight-through three-valued entry of `w o k` at the row's scale. -/
private theorem weight_apply (w : FVec Ideal Cert.ReferenceIdeal.S8192x8192 .f32) (o k : Fin 8192) :
    val_main_v26 (F := Ideal) w (ix2 o k) = ternRound (alpha w o) (w (ix2 o k)) := by
  rw [val_main_v26_apply, val_main_v25_apply, val_main_v24_apply, val_main_v22_apply, val_main_v23_apply,
    val_main_call3_v4_apply, val_main_call3_v3_apply, val_main_cst_8_apply, val_main_call3_v2_apply,
    val_main_call3_v1_apply, val_main_call3_v0_apply, val_main_cst_7_apply, val_main_v21_apply, val_main_v20_apply,
    val_main_v19_apply, scale_apply]
  simp only [Ideal.hostDivf_def, Ideal.hostUnary_roundeven_def, Ideal.maximumf_def, Ideal.minimumf_def,
    Ideal.mulf_def, Ideal.addf_def, Ideal.subf_def, Ideal.ofBits_def]
  rfl

/-- The activation operand at `(r, k)`: `x + (q - x)` with `q` the quantised activations, left as a stage. -/
private theorem act_apply (x : FVec Ideal Cert.ReferenceIdeal.S16x8192 .f32) (r : Fin 16) (k : Fin 8192) :
    val_main_v11 (F := Ideal) x (ix2 r k)
      = x (ix2 r k) + (val_main_v9 (F := Ideal) x (ix2 r k) - x (ix2 r k)) := by
  rw [val_main_v11_apply, val_main_v10_apply]
  rfl

/-! ## The result -/

/-- The reference's result at `i = (r, o)`: the sum over the columns of the activation operand at `(r, k)` times the
    weight operand at `(o, k)`, plus the bias at `o`. -/
theorem ref_apply (x : FVec Ideal Cert.ReferenceIdeal.S16x8192 .f32) (w : FVec Ideal Cert.ReferenceIdeal.S8192x8192 .f32)
    (b : FVec Ideal Cert.ReferenceIdeal.S8192 .f32) (i : Cert.ReferenceIdeal.S16x8192.Idx) :
    Cert.ReferenceIdeal.Read.val_main_v30 (F := Ideal) x w b i
      = (∑ k : Fin 8192, (x (ix2 (i 0) k) + (Cert.ReferenceIdeal.Read.val_main_v9 (F := Ideal) x (ix2 (i 0) k) - x (ix2 (i 0) k)))
            * ternRound (alpha w (i 1)) (w (ix2 (i 1) k)))
        + b (ix1 (i 1)) := by
  obtain ⟨r, o, rfl⟩ : ∃ (r : Fin 16) (o : Fin 8192), i = ix2 r o := ⟨i 0, i 1, eq_ix2 i⟩
  have hl : ∀ k : Fin 8192, lidx_main_v27 (ix2 r o) k = ix2 r k := fun k =>
    funext fun a => match a with | ⟨0, _⟩ => rfl | ⟨1, _⟩ => rfl
  have hr : ∀ k : Fin 8192, ridx_main_v27 (ix2 r o) k = ix2 o k := fun k =>
    funext fun a => match a with | ⟨0, _⟩ => rfl | ⟨1, _⟩ => rfl
  have hb : idx_main_v28 (idx_main_v29 (ix2 r o)) = ix1 o :=
    funext fun a => match a with | ⟨0, _⟩ => rfl
  rw [val_main_v30_apply, val_main_v27_apply, val_main_v29_apply, val_main_v28_apply]
  simp only [hl, hr, hb, act_apply, weight_apply, Ideal.addf_def]

end Cert.BitLinear.RefValue

end
-- ==== Proof.Ternary.lean ====
/-
  The two ways of making a three-valued entry agree on finite data.

  For a finite entry v and a finite positive scale a, the rounding form
  v + (clamp (round (v / a)) * a - v), with rounding to nearest (ties to even) and the clamp to [-1, 1],
  equals the threshold form: a with the sign of v when a < 2 |v|, and 0 otherwise. The argument is on the
  quotient q = v / a: q > 1/2 rounds to an integer at least 1, q < -1/2 to an integer at most -1, and
  |q| ≤ 1/2 rounds to 0 (at q = 1/2 the floor 0 is even; at q = -1/2 the floor -1 is odd, so the tie goes
  up to 0). Also: the row scale is positive, and finite on a row of finite entries.
-/
import proofs.«130121_j67053029425862_2_alg».proof.Proof.Spec
import proofs.«130121_j67053029425862_2_alg».proof.Proof.LibExtReal

noncomputable section

namespace Cert.BitLinear

open Idealize.ShloMosaic Idealize.ShloMosaic.ValueIdx Cert.LibExtReal
open scoped BigOperators

/-! ## The straight-through form -/

/-- Straight-through form: for finite x and ANY extended real y, x + (y - x) = y. -/
theorem ste_eq {x y : EReal} (hx : IsReal x) : x + (y - x) = y := by
  obtain ⟨r, rfl⟩ := hx
  induction y using EReal.rec with
  | bot => simp
  | top => simp
  | coe s => rw [← EReal.coe_sub, ← EReal.coe_add]; congr 1; ring

/-! ## The literals as reals -/

theorem c2_eq : c2 = ((2 : ℝ) : EReal) := by
  simp [Ideal.ofBits, Ideal.ieee, -EReal.coe_mul]; norm_num

theorem c0_eq : c0 = ((0 : ℝ) : EReal) := by
  simp [Ideal.ofBits, Ideal.ieee, -EReal.coe_mul]

theorem c1_eq : c1 = ((1 : ℝ) : EReal) := by
  simp [Ideal.ofBits, Ideal.ieee, -EReal.coe_mul]; norm_num

theorem cm1_eq : cm1 = ((-1 : ℝ) : EReal) := by
  simp [Ideal.ofBits, Ideal.ieee, -EReal.coe_mul]; norm_num

theorem c8192_eq : c8192 = ((8192 : ℝ) : EReal) := by
  simp [Ideal.ofBits, Ideal.ieee, -EReal.coe_mul]; norm_num

theorem eps_eq : eps = ((11258999 / 1125899906842624 : ℝ) : EReal) := by
  simp [Ideal.ofBits, Ideal.ieee, -EReal.coe_mul]; norm_num

theorem eps_pos : 0 < eps := by
  rw [eps_eq]; exact EReal.coe_pos.mpr (by norm_num)

theorem eps_isReal : IsReal eps := eps_eq ▸ isReal_coe _

theorem c8192_isReal : IsReal c8192 := c8192_eq ▸ isReal_coe _

theorem c8192_ne_zero : c8192 ≠ 0 := by
  rw [c8192_eq]; exact EReal.coe_ne_zero.mpr (by norm_num)

/-! ## The row scale -/

/-- The row scale is positive (it is at least eps > 0), whatever w is. -/
theorem alpha_pos (w : Mat 8192 8192) (o : Fin 8192) : 0 < alpha w o :=
  lt_max_of_lt_right eps_pos

/-- The row scale of a row of finite entries is finite. -/
theorem alpha_isReal (w : Mat 8192 8192) (o : Fin 8192) (hw : ∀ k : Fin 8192, IsReal (w (ix2 o k))) :
    IsReal (alpha w o) :=
  IsReal.max
    (IsReal.div (isReal_sum_univ _ fun k => (hw k).max (hw k).neg) c8192_isReal c8192_ne_zero)
    eps_isReal

/-! ## Rounding to nearest, ties to even, near zero -/

/-- The rounding written on any integer f with f ≤ q < f + 1 (that integer is the floor of q). -/
private theorem rhe_of_floor {q : ℝ} {f : ℤ} (h1 : (f : ℝ) ≤ q) (h2 : q < f + 1) :
    Ideal.roundHalfEven q
      = if q - f < 1 / 2 then f else if 1 / 2 < q - f then f + 1 else if Even f then f else f + 1 := by
  have hf : ⌊q⌋ = f := Int.floor_eq_iff.mpr ⟨h1, h2⟩
  unfold Ideal.roundHalfEven
  simp only [hf]

/-- Above one half the rounding is at least 1. -/
private theorem rhe_ge_one {q : ℝ} (h : 1 / 2 < q) : 1 ≤ Ideal.roundHalfEven q := by
  have h1 := Int.floor_le q
  have h2 := Int.lt_floor_add_one q
  rw [rhe_of_floor h1 h2]
  generalize ⌊q⌋ = f at h1 h2
  have h0 : 0 ≤ f := by
    have : (-1 : ℝ) < f := by linarith
    have : (-1 : ℤ) < f := by exact_mod_cast this
    omega
  split_ifs with a b c
  · have : (0 : ℝ) < f := by linarith
    have : (0 : ℤ) < f := by exact_mod_cast this
    omega
  · omega
  · have : (0 : ℝ) < f := by linarith
    have : (0 : ℤ) < f := by exact_mod_cast this
    omega
  · omega

/-- Below minus one half the rounding is at most -1. -/
private theorem rhe_le_neg_one {q : ℝ} (h : q < -(1 / 2)) : Ideal.roundHalfEven q ≤ -1 := by
  have h1 := Int.floor_le q
  have h2 := Int.lt_floor_add_one q
  rw [rhe_of_floor h1 h2]
  generalize ⌊q⌋ = f at h1 h2
  have h0 : f ≤ -1 := by
    have : (f : ℝ) < 0 := by linarith
    have : f < (0 : ℤ) := by exact_mod_cast this
    omega
  split_ifs with a b c
  · exact h0
  · have : (f : ℝ) < -1 := by linarith
    have : f < (-1 : ℤ) := by exact_mod_cast this
    omega
  · exact h0
  · have : (f : ℝ) < -1 := by linarith
    have : f < (-1 : ℤ) := by exact_mod_cast this
    omega

/-- Between minus one half and one half, ends included, the rounding is 0: at 1/2 the floor 0 is even, at
    -1/2 the floor -1 is odd and the tie goes up to 0. -/
private theorem rhe_eq_zero {q : ℝ} (hl : -(1 / 2) ≤ q) (hu : q ≤ 1 / 2) : Ideal.roundHalfEven q = 0 := by
  have h1 := Int.floor_le q
  have h2 := Int.lt_floor_add_one q
  rw [rhe_of_floor h1 h2]
  generalize ⌊q⌋ = f at h1 h2
  have hlo : -1 ≤ f := by
    have : (-2 : ℝ) < f := by linarith
    have : (-2 : ℤ) < f := by exact_mod_cast this
    omega
  have hhi : f ≤ 0 := by
    have : (f : ℝ) < 1 := by linarith
    have : f < (1 : ℤ) := by exact_mod_cast this
    omega
  have hcases : f = -1 ∨ f = 0 := by omega
  rcases hcases with rfl | rfl
  · -- f = -1: q - f = q + 1 ≥ 1/2
    have e : ¬ (q - ((-1 : ℤ) : ℝ) < 1 / 2) := by push_cast; linarith
    rw [if_neg e]
    split_ifs with b c
    · norm_num
    · exact absurd c (by decide)
    · norm_num
  · -- f = 0: q - f = q ≤ 1/2
    have e : ¬ (1 / 2 < q - ((0 : ℤ) : ℝ)) := by push_cast; linarith
    split_ifs with a c
    · rfl
    · rfl
    · exact absurd (show Even (0 : ℤ) by decide) c

/-! ## The clamp of an integer to [-1, 1], on the reals -/

private theorem clamp_of_ge {n : ℤ} (h : 1 ≤ n) : min (1 : ℝ) (max (-1) (n : ℝ)) = 1 := by
  have : (1 : ℝ) ≤ n := by exact_mod_cast h
  exact min_eq_left (le_max_of_le_right this)

private theorem clamp_of_le {n : ℤ} (h : n ≤ -1) : min (1 : ℝ) (max (-1) (n : ℝ)) = -1 := by
  have : (n : ℝ) ≤ -1 := by exact_mod_cast h
  rw [max_eq_left this]; exact min_eq_right (by norm_num)

private theorem clamp_zero : min (1 : ℝ) (max (-1) ((0 : ℤ) : ℝ)) = 0 := by norm_num

/-- The coercion of the reals into the extended reals commutes with min. -/
private theorem coe_min' (a b : ℝ) : ((min a b : ℝ) : EReal) = min (a : EReal) (b : EReal) :=
  EReal.coe_strictMono.monotone.map_min

/-! ## The two forms agree -/

/-- Rounding form = threshold form, for a finite entry and a finite positive scale. -/
theorem ternRound_eq_tern {a v : EReal} (ha : IsReal a) (hpos : 0 < a) (hv : IsReal v) :
    ternRound a v = tern a v := by
  obtain ⟨A, rfl⟩ := ha
  obtain ⟨V, rfl⟩ := hv
  have hA : 0 < A := by exact_mod_cast hpos
  -- the rounding form is the clamped rounded quotient times the scale
  have hR : ternRound (A : EReal) (V : EReal)
      = ((min 1 (max (-1) ((Ideal.roundHalfEven (V / A) : ℤ) : ℝ)) * A : ℝ) : EReal) := by
    unfold ternRound
    rw [ste_eq (isReal_coe V), c1_eq, cm1_eq, div_coe_coe V hA.ne', Ideal.liftRound_coe, ← coe_max,
      ← coe_min', ← EReal.coe_mul]
  -- the two tests of the threshold form, on the reals
  have hcond : ((A : EReal) < c2 * max (V : EReal) (-(V : EReal))) ↔ A < 2 * max V (-V) := by
    rw [c2_eq, ← EReal.coe_neg, ← coe_max, ← EReal.coe_mul, EReal.coe_lt_coe_iff]
  have hc0 : (c0 < (V : EReal)) ↔ 0 < V := by rw [c0_eq, EReal.coe_lt_coe_iff]
  rw [hR]
  unfold tern
  by_cases h1 : A < 2 * max V (-V)
  · rw [if_pos (hcond.mpr h1)]
    by_cases h2 : 0 < V
    · -- a < 2|v| and v > 0: the quotient exceeds 1/2
      rw [if_pos (hc0.mpr h2)]
      rw [max_eq_left (by linarith : -V ≤ V)] at h1
      have hq : 1 / 2 < V / A := by rw [lt_div_iff₀ hA]; linarith
      rw [clamp_of_ge (rhe_ge_one hq), one_mul]
    · -- a < 2|v| and v ≤ 0: the quotient is below -1/2
      rw [if_neg (fun h => h2 (hc0.mp h))]
      have h2' : V ≤ 0 := not_lt.mp h2
      rw [max_eq_right (by linarith : V ≤ -V)] at h1
      have hq : V / A < -(1 / 2) := by rw [div_lt_iff₀ hA]; linarith
      rw [clamp_of_le (rhe_le_neg_one hq), c0_eq, ← EReal.coe_sub]
      congr 1; ring
  · -- 2|v| ≤ a: the quotient is within [-1/2, 1/2]
    rw [if_neg (fun h => h1 (hcond.mp h))]
    have h1' : 2 * max V (-V) ≤ A := not_lt.mp h1
    have hV1 : V ≤ max V (-V) := le_max_left _ _
    have hV2 : -V ≤ max V (-V) := le_max_right _ _
    have hl : -(1 / 2) ≤ V / A := by rw [le_div_iff₀ hA]; linarith
    have hu : V / A ≤ 1 / 2 := by rw [div_le_iff₀ hA]; linarith
    rw [rhe_eq_zero hl hu, clamp_zero, zero_mul, c0_eq]

end Cert.BitLinear

end
-- ==== Proof.RefBridge.lean ====
/-
  The reference computes the layer `G`.

  Read at an index, the reference's result is `∑ₖ (x + (xq − x)) · ternRound (alpha o) (w o k) + bias o`
  (module RefValue), with `xq` the quantized activations. For finite inputs the straight-through forms collapse:
  `x + (xq − x) = xq` for a finite `x` whatever `xq` is, and the rounding form of the three-valued entry is the
  threshold form because the row scale is finite and positive (module Ternary). What is left is `G` of the
  quantized activations.
-/
import proofs.«130121_j67053029425862_2_alg».proof.Proof.RefValue
import proofs.«130121_j67053029425862_2_alg».proof.Proof.Ternary

noncomputable section

namespace Cert.BitLinear

open Idealize.ShloMosaic Idealize.ShloMosaic.ValueIdx Cert.LibExtReal
open scoped BigOperators

/-- For finite `x` and `w` the reference's result array is the layer of its own quantized activations. -/
theorem ref_eq_G (x : FVec Ideal Cert.ReferenceIdeal.S16x8192 .f32) (w : FVec Ideal Cert.ReferenceIdeal.S8192x8192 .f32)
    (b : FVec Ideal Cert.ReferenceIdeal.S8192 .f32) (hx : ∀ i, IsReal (x i)) (hw : ∀ i, IsReal (w i)) :
    Cert.ReferenceIdeal.Read.val_main_v30 (F := Ideal) x w b
      = G (Cert.ReferenceIdeal.Read.val_main_v9 (F := Ideal) x) w b := by
  funext i
  rw [RefValue.ref_apply]
  unfold G
  refine congrArg (fun s => s + b (ix1 (i 1))) (Finset.sum_congr rfl fun k _ => ?_)
  rw [ste_eq (hx _), ternRound_eq_tern (alpha_isReal w (i 1) fun k => hw _) (alpha_pos w (i 1)) (hw _)]

end Cert.BitLinear

end
-- ==== Proof.Finite.lean ====
/-
  From the certificate's precondition to finiteness of the inputs. The precondition states, for each
  input array, that every element's absolute value compares strictly below `+∞`, the three statements
  conjoined. Read back element by element, each entry of `x` and of `w` is neither `⊤` nor `⊥`, that is,
  a real number.
-/
import proofs.«130121_j67053029425862_2_alg».proof.Pre_finite_inputs
import proofs.«130121_j67053029425862_2_alg».proof.Proof.LibExtReal
import Idealize.ShloMosaic.Lib.ReduceAll
import Idealize.ShloMosaic.Lib.ValueIdx
noncomputable section
namespace Cert.BitLinear
open Idealize.ShloMosaic Idealize.ShloMosaic.ValueIdx Cert.LibExtReal

/-- The result shape of a reduction over all axes has exactly one index. -/
private instance subsingleton_scalar_idx : Subsingleton Cert.Pre_finite_inputs.S_.Idx :=
  ⟨fun _ _ => funext fun d => d.elim0⟩

/-- The f32 pattern with all exponent bits set and a zero fraction denotes `+∞`. -/
private theorem ofBits_pos_inf : Ideal.ofBits .f32 0x7F800000#32 = (⊤ : EReal) := by
  simp [Ideal.ofBits, Ideal.ieee]

/-- An extended real whose absolute value `max a (-a)` compares strictly below `+∞` is a real number:
at `⊤` and at `⊥` the absolute value is `⊤`, and `⊤ < ⊤` is false. -/
private theorem isReal_of_abs_lt_inf (a : EReal)
    (h : Ideal.cmp .olt (max a (-a)) (Ideal.ofBits .f32 0x7F800000#32) = 1#1) : IsReal a := by
  rw [ofBits_pos_inf] at h
  induction a using EReal.rec with
  | bot => simp [Ideal.cmp] at h
  | coe r => exact ⟨r, rfl⟩
  | top => simp [Ideal.cmp] at h

theorem finite_of_pre [Cert.Pre_finite_inputs.Facts]
    (x : FVec Ideal Cert.Pre_finite_inputs.S16x8192 .f32) (w : FVec Ideal Cert.Pre_finite_inputs.S8192x8192 .f32)
    (b : FVec Ideal Cert.Pre_finite_inputs.S8192 .f32)
    (h : Cert.Pre_finite_inputs.fn (F := Ideal) x w b = fun _ => 1#1) :
    (∀ i, IsReal (x i)) ∧ (∀ i, IsReal (w i)) := by
  -- The predicate at its single index: a conjunction of three `all`-reductions.
  have h0 := congrFun h ValueIdx.ix0
  dsimp only [Cert.Pre_finite_inputs.fn] at h0
  obtain ⟨hxw, _⟩ := IntOp.andi_eq_one.1 h0
  obtain ⟨hx, hw⟩ := IntOp.andi_eq_one.1 hxw
  refine ⟨fun i => ?_, fun i => ?_⟩
  · -- every element of `|x| < +∞` is 1, so every entry of `x` is real
    have e := Host.reduce_andi_all _ _ _ _ ValueIdx.ix0 hx i
    exact isReal_of_abs_lt_inf (x i) e
  · have e := Host.reduce_andi_all _ _ _ _ ValueIdx.ix0 hw i
    exact isReal_of_abs_lt_inf (w i) e

end Cert.BitLinear

end
-- ==== Proof.lean ====
/-
  A linear layer with three-valued weights, `out = xq · wqᵀ + bias` over x : [16, 8192], w : [8192, 8192],
  bias : [8192]: the kernel against its jnp reference, over the extended reals.

  Both programs quantize the activations on the host by the same operations, so `xq` is one function of `x` on
  both sides and is never opened. Each row `o` of the weight has the scale `alpha o = max (mean |w o ·|) eps`. The
  kernel replaces `w o k` by `±alpha o` (the sign of `w o k`) when `alpha o < 2 |w o k|` and by `0` otherwise,
  multiplies 2048-column chunks into an accumulator started at zero, and adds the bias; it does so for 256 rows
  of the weight at each of 32 grid points, writing 256 columns of the result. The reference rounds `w / alpha` to
  the nearest integer (ties to even), clamps to `[-1, 1]`, scales back, writes both quantized operands in the
  straight-through form `v + (v̂ − v)`, and takes one product over all 8192 columns.

  The two agree for finite inputs: `v + (v̂ − v) = v̂` for finite `v`; the rounded and clamped quotient times
  `alpha` is the threshold form, because `alpha` is finite and positive; and a sum over 8192 columns is the sum of
  its four chunks in any grouping. The finiteness of `x` and `w` is the certificate's precondition.

  Modules: Spec (the layer `G` and the two three-valued forms), Ternary (their agreement, the scale's sign and
  finiteness), Finite (the precondition read as "every entry is real"), RefValue and RefBridge (the reference
  computes `G`), KerBody, KerApply, KerArray, KerHost, KerFinal (the kernel's result array is `G`).
-/
import proofs.«130121_j67053029425862_2_alg».proof.Defs
import proofs.«130121_j67053029425862_2_alg».proof.Proof.Gen.Kernel
import proofs.«130121_j67053029425862_2_alg».proof.Proof.Gen.Kernel.Skeleton
import proofs.«130121_j67053029425862_2_alg».proof.Proof.Gen.Kernel.Launch
import proofs.«130121_j67053029425862_2_alg».proof.Proof.Gen.Kernel.Points
import proofs.«130121_j67053029425862_2_alg».proof.Proof.Gen.Kernel.Frame
import proofs.«130121_j67053029425862_2_alg».proof.Proof.Gen.KernelIdeal
import proofs.«130121_j67053029425862_2_alg».proof.Proof.Gen.KernelIdeal.Skeleton
import proofs.«130121_j67053029425862_2_alg».proof.Proof.Gen.KernelIdeal.Launch
import proofs.«130121_j67053029425862_2_alg».proof.Proof.Gen.KernelIdeal.Points
import proofs.«130121_j67053029425862_2_alg».proof.Proof.Gen.KernelIdeal.Frame
import proofs.«130121_j67053029425862_2_alg».proof.Proof.Gen.ReferenceIdeal
import proofs.«130121_j67053029425862_2_alg».proof.Proof.Gen.KernelIdeal.Value
import proofs.«130121_j67053029425862_2_alg».proof.Proof.Gen.ReferenceIdeal.Run
import proofs.«130121_j67053029425862_2_alg».proof.Proof.Gen.ReferenceIdeal.Read
import proofs.«130121_j67053029425862_2_alg».proof.Proof.Gen.Pre_finite_inputs
import proofs.«130121_j67053029425862_2_alg».proof.Proof.KerFinal
import proofs.«130121_j67053029425862_2_alg».proof.Proof.RefBridge
import proofs.«130121_j67053029425862_2_alg».proof.Proof.Finite
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Over the extended reals, from finite inputs, both programs end with the layer `G` of the quantized
    activations, the weights and the bias. -/
theorem algebraic : Cert.algebraic_KernelIdeal_ReferenceIdeal := by
  intro m ρ m' ρ' hpre hagree
  refine ⟨fun c => Cert.BitLinear.G
      (Cert.ReferenceIdeal.Read.val_main_v9 (F := Ideal) (m ((c : Thread Cert.KernelIdeal.nD Cert.KernelIdeal.τ).loc Cert.KernelIdeal.main_arg0)))
      (m ((c : Thread Cert.KernelIdeal.nD Cert.KernelIdeal.τ).loc Cert.KernelIdeal.main_arg1))
      (m ((c : Thread Cert.KernelIdeal.nD Cert.KernelIdeal.τ).loc Cert.KernelIdeal.main_arg2)),
    Cert.BitLinear.KerValue.run m ρ, ?_⟩
  refine (θ_run Cert.ReferenceIdeal.defs _ _).mono (fun r h c => ⟨?_, (h c).2⟩)
    (Cert.ReferenceIdeal.Value.run (F := Ideal) m' ρ')
  obtain ⟨hx, hw⟩ := Cert.BitLinear.finite_of_pre _ _ _ (hpre c)
  rw [(h c).1, Cert.ReferenceIdeal.Read.val_main_v30_eq, (hagree c).1, (hagree c).2.1, (hagree c).2.2]
  exact Cert.BitLinear.ref_eq_G _ _ _ hx hw

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
